-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x19x1024x1024 : Shape := ⟨4, ![4, 19, 1024, 1024]⟩
abbrev S4x1024x1024 : Shape := ⟨3, ![4, 1024, 1024]⟩
abbrev S500000 : Shape := ⟨1, ![500000]⟩
abbrev S_ : Shape := ⟨0, ![]⟩

class Facts : Prop where
  bcast_S_S4x19x1024x1024 : S_.BroadcastsInDim S4x19x1024x1024 (![] : Fin 0 → Fin S4x19x1024x1024.rank)
  reducesTo_S4x19x1024x1024_S_d0_1_2_3 : S4x19x1024x1024.ReducesTo [0, 1, 2, 3] S_
  h_S_ : 0 < S_.numel

variable [Facts]

def fn {F : FTy → Type} [FloatOps F] (main_arg0 : FVec F S4x19x1024x1024 .f32) (main_arg1 : IVec S4x1024x1024 32) (main_arg2 : IVec S500000 32) (main_arg3 : IVec S500000 32) (main_arg4 : IVec S500000 32) : IVec S_ 1 :=
  let main_v0 : FVec F S4x19x1024x1024 .f32 := Host.absf main_arg0
  let main_cst : FVec F S_ .f32 := constant S_ .f32 0x7F800000#32
  let main_v1 : FVec F S4x19x1024x1024 .f32 := broadcastInDim S4x19x1024x1024 ![] bcast_S_S4x19x1024x1024 main_cst
  let main_v2 : IVec S4x19x1024x1024 1 := cmpf .olt main_v0 main_v1
  let main_c : IVec S_ 1 := constantI S_ 1 1#1
  let main_v3 : IVec S_ 1 := (fun x v => Host.reduce IntOp.andi x v reducesTo_S4x19x1024x1024_S_d0_1_2_3 h_S_) main_v2 main_c
  main_v3
-- ==== Kernel.lean ====
abbrev S4x19x1024x1024 : Shape := ⟨4, ![4, 19, 1024, 1024]⟩
abbrev S4x1024x1024 : Shape := ⟨3, ![4, 1024, 1024]⟩
abbrev S500000 : Shape := ⟨1, ![500000]⟩
abbrev S1x19x64x1024 : Shape := ⟨4, ![1, 19, 64, 1024]⟩
abbrev S1x64x1024 : Shape := ⟨3, ![1, 64, 1024]⟩
abbrev S1x1x64x1024 : Shape := ⟨4, ![1, 1, 64, 1024]⟩
abbrev S_ : Shape := ⟨0, ![]⟩
abbrev S500000x1 : Shape := ⟨2, ![500000, 1]⟩
abbrev S500000x3 : Shape := ⟨2, ![500000, 3]⟩
abbrev S500000x19 : Shape := ⟨2, ![500000, 19]⟩
abbrev S500000x1x1 : Shape := ⟨3, ![500000, 1, 1]⟩
abbrev S1 : Shape := ⟨1, ![1]⟩
abbrev S1x1x1 : Shape := ⟨3, ![1, 1, 1]⟩

abbrev nBuf : Space → Nat
  | .hbm => 102
  | .vmem => 4
  | .smem => 0
  | _ => 0

abbrev bufTy : (tb : Table) → Fin (tcTables nBuf tb) → BufTy
  | .hbm, ⟨0, _⟩ => ⟨S4x19x1024x1024, .f32⟩
  | .hbm, ⟨1, _⟩ => ⟨S4x1024x1024, .i32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S4x19x1024x1024, .f32⟩
  | .hbm, ⟨6, _⟩ => ⟨S_, .i32⟩
  | .hbm, ⟨7, _⟩ => ⟨S500000, .i32⟩
  | .hbm, ⟨8, _⟩ => ⟨S500000, .i1⟩
  | .hbm, ⟨9, _⟩ => ⟨S_, .i32⟩
  | .hbm, ⟨10, _⟩ => ⟨S500000, .i32⟩
  | .hbm, ⟨11, _⟩ => ⟨S500000, .i32⟩
  | .hbm, ⟨12, _⟩ => ⟨S500000, .i32⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x1, .i32⟩
  | .hbm, ⟨29, _⟩ => ⟨S500000x1, .i32⟩
  | .hbm, ⟨30, _⟩ => ⟨S500000x3, .i32⟩
  | .hbm, ⟨31, _⟩ => ⟨S500000x19, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S_, .i32⟩
  | .hbm, ⟨47, _⟩ => ⟨S500000, .i32⟩
  | .hbm, ⟨48, _⟩ => ⟨S500000, .i1⟩
  | .hbm, ⟨49, _⟩ => ⟨S_, .i32⟩
  | .hbm, ⟨50, _⟩ => ⟨S500000, .i32⟩
  | .hbm, ⟨51, _⟩ => ⟨S500000, .i32⟩
  | .hbm, ⟨52, _⟩ => ⟨S500000, .i32⟩
  | .hbm, ⟨53, _⟩ => ⟨S500000x1, .i32⟩
  | .hbm, ⟨54, _⟩ => ⟨S500000x1, .i32⟩
  | .hbm, ⟨55, _⟩ => ⟨S500000x1, .i32⟩
  | .hbm, ⟨56, _⟩ => ⟨S500000x3, .i32⟩
  | .hbm, ⟨57, _⟩ => ⟨S500000, .i32⟩
  | .hbm, ⟨58, _⟩ => ⟨S_, .f32⟩
  | .hbm, ⟨59, _⟩ => ⟨S500000, .f32⟩
  | .hbm, ⟨60, _⟩ => ⟨S_, .f32⟩
  | .hbm, ⟨61, _⟩ => ⟨S500000, .f32⟩
  | .hbm, ⟨62, _⟩ => ⟨S500000, .f32⟩
  | .hbm, ⟨63, _⟩ => ⟨S500000x1, .f32⟩
  | .hbm, ⟨64, _⟩ => ⟨S500000x19, .f32⟩
  | .hbm, ⟨65, _⟩ => ⟨S500000x19, .f32⟩
  | .hbm, ⟨66, _⟩ => ⟨S500000x19, .f32⟩
  | .hbm, ⟨67, _⟩ => ⟨S_, .f32⟩
  | .hbm, ⟨68, _⟩ => ⟨S500000, .f32⟩
  | .hbm, ⟨69, _⟩ => ⟨S500000x1, .f32⟩
  | .hbm, ⟨70, _⟩ => ⟨S500000x1, .f32⟩
  | .hbm, ⟨71, _⟩ => ⟨S500000x19, .f32⟩
  | .hbm, ⟨72, _⟩ => ⟨S500000x19, .f32⟩
  | .hbm, ⟨73, _⟩ => ⟨S500000x1, .i32⟩
  | .hbm, ⟨74, _⟩ => ⟨S_, .i32⟩
  | .hbm, ⟨75, _⟩ => ⟨S500000x1, .i32⟩
  | .hbm, ⟨76, _⟩ => ⟨S500000x1, .i1⟩
  | .hbm, ⟨77, _⟩ => ⟨S_, .i32⟩
  | .hbm, ⟨78, _⟩ => ⟨S500000x1, .i32⟩
  | .hbm, ⟨79, _⟩ => ⟨S500000x1, .i32⟩
  | .hbm, ⟨80, _⟩ => ⟨S500000x1, .i32⟩
  | .hbm, ⟨81, _⟩ => ⟨S500000x1x1, .i32⟩
  | .hbm, ⟨82, _⟩ => ⟨S1, .i32⟩
  | .hbm, ⟨83, _⟩ => ⟨S_, .i32⟩
  | .hbm, ⟨84, _⟩ => ⟨S500000x1x1, .i32⟩
  | .hbm, ⟨85, _⟩ => ⟨S500000x1x1, .i1⟩
  | .hbm, ⟨86, _⟩ => ⟨S1x1x1, .i32⟩
  | .hbm, ⟨87, _⟩ => ⟨S500000x1x1, .i32⟩
  | .hbm, ⟨88, _⟩ => ⟨S500000x1x1, .i1⟩
  | .hbm, ⟨89, _⟩ => ⟨S500000x1x1, .i1⟩
  | .hbm, ⟨90, _⟩ => ⟨S_, .i1⟩
  | .hbm, ⟨91, _⟩ => ⟨S500000x1, .i1⟩
  | .hbm, ⟨92, _⟩ => ⟨S500000x1, .f32⟩
  | .hbm, ⟨93, _⟩ => ⟨S_, .f32⟩
  | .hbm, ⟨94, _⟩ => ⟨S500000x1, .f32⟩
  | .hbm, ⟨95, _⟩ => ⟨S500000x1, .f32⟩
  | .hbm, ⟨96, _⟩ => ⟨S500000, .f32⟩
  | .hbm, ⟨97, _⟩ => ⟨S500000, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .local _ .vmem, ⟨0, _⟩ => ⟨S1x19x64x1024, .f32⟩
  | .local _ .vmem, ⟨1, _⟩ => ⟨S1x19x64x1024, .f32⟩
  | .local _ .vmem, ⟨2, _⟩ => ⟨S1x19x64x1024, .f32⟩
  | .local _ .vmem, ⟨3, _⟩ => ⟨S1x19x64x1024, .f32⟩
  | _, _ => ⟨S4x19x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_9 : Ref sig .tc := ⟨.hbm, 46, rfl⟩
abbrev main_v31 : Ref sig .tc := ⟨.hbm, 47, rfl⟩
abbrev main_v32 : Ref sig .tc := ⟨.hbm, 48, rfl⟩
abbrev main_c_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call0_cst : Ref sig .tc := ⟨.hbm, 58, rfl⟩
abbrev main_call0_v0 : Ref sig .tc := ⟨.hbm, 59, rfl⟩
abbrev main_call0_cst_0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_cst_1 : Ref sig .tc := ⟨.hbm, 67, rfl⟩
abbrev main_call0_v7 : Ref sig .tc := ⟨.hbm, 68, rfl⟩
abbrev main_call0_v8 : Ref sig .tc := ⟨.hbm, 69, rfl⟩
abbrev main_call0_v9 : Ref sig .tc := ⟨.hbm, 70, rfl⟩
abbrev main_call0_v10 : Ref sig .tc := ⟨.hbm, 71, rfl⟩
abbrev main_v41 : Ref sig .tc := ⟨.hbm, 72, rfl⟩
abbrev main_v42 : Ref sig .tc := ⟨.hbm, 73, rfl⟩
abbrev main_call1_c : Ref sig .tc := ⟨.hbm, 74, rfl⟩
abbrev main_call1_v0 : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_c_1 : Ref sig .tc := ⟨.hbm, 82, rfl⟩
abbrev main_call1_c_2 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_c_3 : Ref sig .tc := ⟨.hbm, 90, rfl⟩
abbrev main_call1_v12 : Ref sig .tc := ⟨.hbm, 91, rfl⟩
abbrev main_call1_v13 : Ref sig .tc := ⟨.hbm, 92, rfl⟩
abbrev main_call1_cst : Ref sig .tc := ⟨.hbm, 93, rfl⟩
abbrev main_call1_v14 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_cst : Ref sig .tc := ⟨.hbm, 98, rfl⟩
abbrev main_v46 : Ref sig .tc := ⟨.hbm, 99, rfl⟩
abbrev main_cst_11 : Ref sig .tc := ⟨.hbm, 100, rfl⟩
abbrev main_v47 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x19x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x19x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x19x64x1024_S1x19x64x1024_0_0_0_0 : ∀ a, (![0, 0, 0, 0] : Fin 4 → Nat) a + S1x19x64x1024.size a ≤ S1x19x64x1024.size a
  h_S1x19x64x1024 : 0 < S1x19x64x1024.numel
  reduces_S1x19x64x1024_S1x64x1024 : S1x19x64x1024.Reduces [1] S1x64x1024
  shapeCasts_S1x64x1024_S1x1x64x1024 : S1x64x1024.ShapeCasts S1x1x64x1024
  broadcasts_S1x1x64x1024_S1x19x64x1024 : S1x1x64x1024.Broadcasts S1x19x64x1024
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x1_S500000x3_d1 : Shape.Concatenates [S500000x1, S500000x1, S500000x1] S500000x3 1
  reducesTo_S500000x19_S500000_d1 : S500000x19.ReducesTo [1] S500000
  h_S_ : 0 < S_.numel
  bcast_S500000x1_S500000x19_0_1 : S500000x1.BroadcastsInDim S500000x19 (![0, 1] : Fin 2 → Fin S500000x19.rank)
  bcast_S_S500000x1 : S_.BroadcastsInDim S500000x1 (![] : Fin 0 → Fin S500000x1.rank)
  shapeCasts_S500000x1_S500000x1x1 : S500000x1.ShapeCasts S500000x1x1
  bcast_S_S500000x1x1 : S_.BroadcastsInDim S500000x1x1 (![] : Fin 0 → Fin S500000x1x1.rank)
  bcast_S1_S1x1x1_2 : S1.BroadcastsInDim S1x1x1 (![2] : Fin 1 → Fin S1x1x1.rank)
  bcast_S1x1x1_S500000x1x1_0_1_2 : S1x1x1.BroadcastsInDim S500000x1x1 (![0, 1, 2] : Fin 3 → Fin S500000x1x1.rank)
  reducesTo_S500000x1x1_S500000x1_d2 : S500000x1x1.ReducesTo [2] S500000x1
  shapeCasts_S500000x1_S500000 : S500000x1.ShapeCasts S500000
  reducesTo_S500000_S_d0 : S500000.ReducesTo [0] S_
  gather_S4x19x1024x1024_S500000x3_S500000x19_1_023_n_n_023_1_11911_wf : GatherDims.WF S4x19x1024x1024 S500000x3 S500000x19 [1] [0, 2, 3] [] [0, 2, 3] [] 1 ![1, 19, 1, 1]
  gather_S4x1024x1024_S500000x3_S500000_n_012_n_n_012_1_111_wf : GatherDims.WF S4x1024x1024 S500000x3 S500000 [] [0, 1, 2] [] [0, 1, 2] [] 1 ![1, 1, 1]
  gather_S500000x19_S500000x1x1_S500000x1_n_1_0_0_1_2_11_wf : GatherDims.WF S500000x19 S500000x1x1 S500000x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x64x1024.size a ≤ S4x19x1024x1024.size a
  hwx0_0 : ∀ i : grid0.Coords, EltTy.bits .f32 = 32 ∨ (Rect.block (s := S4x19x1024x1024) S1x19x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x19x64x1024.size a ≤ S4x19x1024x1024.size a
  hwx0_1 : ∀ i : grid0.Coords, EltTy.bits .f32 = 32 ∨ (Rect.block (s := S4x19x1024x1024) S1x19x64x1024.size (cc0_transform_1 i) (hinb0_1 i)).WholeWords (EltTy.packing .f32)

variable [Facts₀]

def gather_S4x19x1024x1024_S500000x3_S500000x19_1_023_n_n_023_1_11911 : GatherDims S4x19x1024x1024 S500000x3 S500000x19 where
  offsetDims := [1]
  collapsedSliceDims := [0, 2, 3]
  operandBatchingDims := []
  startIndicesBatchingDims := []
  startIndexMap := [0, 2, 3]
  indexVectorDim := 1
  sliceSizes := ![1, 19, 1, 1]
  wf := gather_S4x19x1024x1024_S500000x3_S500000x19_1_023_n_n_023_1_11911_wf
def gather_S4x1024x1024_S500000x3_S500000_n_012_n_n_012_1_111 : GatherDims S4x1024x1024 S500000x3 S500000 where
  offsetDims := []
  collapsedSliceDims := [0, 1, 2]
  operandBatchingDims := []
  startIndicesBatchingDims := []
  startIndexMap := [0, 1, 2]
  indexVectorDim := 1
  sliceSizes := ![1, 1, 1]
  wf := gather_S4x1024x1024_S500000x3_S500000_n_012_n_n_012_1_111_wf
def gather_S500000x19_S500000x1x1_S500000x1_n_1_0_0_1_2_11 : GatherDims S500000x19 S500000x1x1 S500000x1 where
  offsetDims := []
  collapsedSliceDims := [1]
  operandBatchingDims := [0]
  startIndicesBatchingDims := [0]
  startIndexMap := [1]
  indexVectorDim := 2
  sliceSizes := ![1, 1]
  wf := gather_S500000x19_S500000x1x1_S500000x1_n_1_0_0_1_2_11_wf

abbrev win0_0 : Pipeline.Window sig grid0 :=
  Pipeline.Window.ofSpec (Memref.whole main_arg0) S1x19x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x19x64x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x19x1024x1024 : Shape := ⟨4, ![4, 19, 1024, 1024]⟩
abbrev S4x1024x1024 : Shape := ⟨3, ![4, 1024, 1024]⟩
abbrev S500000 : Shape := ⟨1, ![500000]⟩
abbrev S_ : Shape := ⟨0, ![]⟩
abbrev S4x1x1024x1024 : Shape := ⟨4, ![4, 1, 1024, 1024]⟩
abbrev S500000x1 : Shape := ⟨2, ![500000, 1]⟩
abbrev S500000x3 : Shape := ⟨2, ![500000, 3]⟩
abbrev S500000x19 : Shape := ⟨2, ![500000, 19]⟩
abbrev S500000x1x1 : Shape := ⟨3, ![500000, 1, 1]⟩
abbrev S1 : Shape := ⟨1, ![1]⟩
abbrev S1x1x1 : Shape := ⟨3, ![1, 1, 1]⟩

abbrev nBuf : Space → Nat
  | .hbm => 115
  | .vmem => 0
  | .smem => 0
  | _ => 0

abbrev bufTy : (tb : Table) → Fin (tcTables nBuf tb) → BufTy
  | .hbm, ⟨0, _⟩ => ⟨S4x19x1024x1024, .f32⟩
  | .hbm, ⟨1, _⟩ => ⟨S4x1024x1024, .i32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S_, .f32⟩
  | .hbm, ⟨6, _⟩ => ⟨S4x1024x1024, .f32⟩
  | .hbm, ⟨7, _⟩ => ⟨S_, .f32⟩
  | .hbm, ⟨8, _⟩ => ⟨S4x1024x1024, .f32⟩
  | .hbm, ⟨9, _⟩ => ⟨S4x1024x1024, .f32⟩
  | .hbm, ⟨10, _⟩ => ⟨S4x1x1024x1024, .f32⟩
  | .hbm, ⟨11, _⟩ => ⟨S4x19x1024x1024, .f32⟩
  | .hbm, ⟨12, _⟩ => ⟨S4x19x1024x1024, .f32⟩
  | .hbm, ⟨13, _⟩ => ⟨S4x19x1024x1024, .f32⟩
  | .hbm, ⟨14, _⟩ => ⟨S_, .f32⟩
  | .hbm, ⟨15, _⟩ => ⟨S4x1024x1024, .f32⟩
  | .hbm, ⟨16, _⟩ => ⟨S4x1x1024x1024, .f32⟩
  | .hbm, ⟨17, _⟩ => ⟨S4x19x1024x1024, .f32⟩
  | .hbm, ⟨18, _⟩ => ⟨S4x19x1024x1024, .f32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000x1, .i32⟩
  | .hbm, ⟨42, _⟩ => ⟨S500000x1, .i32⟩
  | .hbm, ⟨43, _⟩ => ⟨S500000x3, .i32⟩
  | .hbm, ⟨44, _⟩ => ⟨S500000x19, .f32⟩
  | .hbm, ⟨45, _⟩ => ⟨S_, .i32⟩
  | .hbm, ⟨46, _⟩ => ⟨S500000, .i32⟩
  | .hbm, ⟨47, _⟩ => ⟨S500000, .i1⟩
  | .hbm, ⟨48, _⟩ => ⟨S_, .i32⟩
  | .hbm, ⟨49, _⟩ => ⟨S500000, .i32⟩
  | .hbm, ⟨50, _⟩ => ⟨S500000, .i32⟩
  | .hbm, ⟨51, _⟩ => ⟨S500000, .i32⟩
  | .hbm, ⟨52, _⟩ => ⟨S_, .i32⟩
  | .hbm, ⟨53, _⟩ => ⟨S500000, .i32⟩
  | .hbm, ⟨54, _⟩ => ⟨S500000, .i1⟩
  | .hbm, ⟨55, _⟩ => ⟨S_, .i32⟩
  | .hbm, ⟨56, _⟩ => ⟨S500000, .i32⟩
  | .hbm, ⟨57, _⟩ => ⟨S500000, .i32⟩
  | .hbm, ⟨58, _⟩ => ⟨S500000, .i32⟩
  | .hbm, ⟨59, _⟩ => ⟨S_, .i32⟩
  | .hbm, ⟨60, _⟩ => ⟨S500000, .i32⟩
  | .hbm, ⟨61, _⟩ => ⟨S500000, .i1⟩
  | .hbm, ⟨62, _⟩ => ⟨S_, .i32⟩
  | .hbm, ⟨63, _⟩ => ⟨S500000, .i32⟩
  | .hbm, ⟨64, _⟩ => ⟨S500000, .i32⟩
  | .hbm, ⟨65, _⟩ => ⟨S500000, .i32⟩
  | .hbm, ⟨66, _⟩ => ⟨S500000x1, .i32⟩
  | .hbm, ⟨67, _⟩ => ⟨S500000x1, .i32⟩
  | .hbm, ⟨68, _⟩ => ⟨S500000x1, .i32⟩
  | .hbm, ⟨69, _⟩ => ⟨S500000x3, .i32⟩
  | .hbm, ⟨70, _⟩ => ⟨S500000, .i32⟩
  | .hbm, ⟨71, _⟩ => ⟨S_, .f32⟩
  | .hbm, ⟨72, _⟩ => ⟨S500000, .f32⟩
  | .hbm, ⟨73, _⟩ => ⟨S_, .f32⟩
  | .hbm, ⟨74, _⟩ => ⟨S500000, .f32⟩
  | .hbm, ⟨75, _⟩ => ⟨S500000, .f32⟩
  | .hbm, ⟨76, _⟩ => ⟨S500000x1, .f32⟩
  | .hbm, ⟨77, _⟩ => ⟨S500000x19, .f32⟩
  | .hbm, ⟨78, _⟩ => ⟨S500000x19, .f32⟩
  | .hbm, ⟨79, _⟩ => ⟨S500000x19, .f32⟩
  | .hbm, ⟨80, _⟩ => ⟨S_, .f32⟩
  | .hbm, ⟨81, _⟩ => ⟨S500000, .f32⟩
  | .hbm, ⟨82, _⟩ => ⟨S500000x1, .f32⟩
  | .hbm, ⟨83, _⟩ => ⟨S500000x1, .f32⟩
  | .hbm, ⟨84, _⟩ => ⟨S500000x19, .f32⟩
  | .hbm, ⟨85, _⟩ => ⟨S500000x19, .f32⟩
  | .hbm, ⟨86, _⟩ => ⟨S500000x1, .i32⟩
  | .hbm, ⟨87, _⟩ => ⟨S_, .i32⟩
  | .hbm, ⟨88, _⟩ => ⟨S500000x1, .i32⟩
  | .hbm, ⟨89, _⟩ => ⟨S500000x1, .i1⟩
  | .hbm, ⟨90, _⟩ => ⟨S_, .i32⟩
  | .hbm, ⟨91, _⟩ => ⟨S500000x1, .i32⟩
  | .hbm, ⟨92, _⟩ => ⟨S500000x1, .i32⟩
  | .hbm, ⟨93, _⟩ => ⟨S500000x1, .i32⟩
  | .hbm, ⟨94, _⟩ => ⟨S500000x1x1, .i32⟩
  | .hbm, ⟨95, _⟩ => ⟨S1, .i32⟩
  | .hbm, ⟨96, _⟩ => ⟨S_, .i32⟩
  | .hbm, ⟨97, _⟩ => ⟨S500000x1x1, .i32⟩
  | .hbm, ⟨98, _⟩ => ⟨S500000x1x1, .i1⟩
  | .hbm, ⟨99, _⟩ => ⟨S1x1x1, .i32⟩
  | .hbm, ⟨100, _⟩ => ⟨S500000x1x1, .i32⟩
  | .hbm, ⟨101, _⟩ => ⟨S500000x1x1, .i1⟩
  | .hbm, ⟨102, _⟩ => ⟨S500000x1x1, .i1⟩
  | .hbm, ⟨103, _⟩ => ⟨S_, .i1⟩
  | .hbm, ⟨104, _⟩ => ⟨S500000x1, .i1⟩
  | .hbm, ⟨105, _⟩ => ⟨S500000x1, .f32⟩
  | .hbm, ⟨106, _⟩ => ⟨S_, .f32⟩
  | .hbm, ⟨107, _⟩ => ⟨S500000x1, .f32⟩
  | .hbm, ⟨108, _⟩ => ⟨S500000x1, .f32⟩
  | .hbm, ⟨109, _⟩ => ⟨S500000, .f32⟩
  | .hbm, ⟨110, _⟩ => ⟨S500000, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | _, _ => ⟨S4x19x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_c_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_11 : Ref sig .tc := ⟨.hbm, 59, rfl⟩
abbrev main_v41 : Ref sig .tc := ⟨.hbm, 60, rfl⟩
abbrev main_v42 : Ref sig .tc := ⟨.hbm, 61, rfl⟩
abbrev main_c_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call0_cst : Ref sig .tc := ⟨.hbm, 71, rfl⟩
abbrev main_call0_v0 : Ref sig .tc := ⟨.hbm, 72, rfl⟩
abbrev main_call0_cst_0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_cst_1 : Ref sig .tc := ⟨.hbm, 80, rfl⟩
abbrev main_call0_v7 : Ref sig .tc := ⟨.hbm, 81, rfl⟩
abbrev main_call0_v8 : Ref sig .tc := ⟨.hbm, 82, rfl⟩
abbrev main_call0_v9 : Ref sig .tc := ⟨.hbm, 83, rfl⟩
abbrev main_call0_v10 : Ref sig .tc := ⟨.hbm, 84, rfl⟩
abbrev main_v51 : Ref sig .tc := ⟨.hbm, 85, rfl⟩
abbrev main_v52 : Ref sig .tc := ⟨.hbm, 86, rfl⟩
abbrev main_call1_c : Ref sig .tc := ⟨.hbm, 87, rfl⟩
abbrev main_call1_v0 : Ref sig .tc := ⟨.hbm, 88, rfl⟩
abbrev main_call1_v1 : Ref sig .tc := ⟨.hbm, 89, rfl⟩
abbrev main_call1_c_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_c_1 : Ref sig .tc := ⟨.hbm, 95, rfl⟩
abbrev main_call1_c_2 : Ref sig .tc := ⟨.hbm, 96, rfl⟩
abbrev main_call1_v6 : Ref sig .tc := ⟨.hbm, 97, rfl⟩
abbrev main_call1_v7 : Ref sig .tc := ⟨.hbm, 98, rfl⟩
abbrev main_call1_v8 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_c_3 : Ref sig .tc := ⟨.hbm, 103, rfl⟩
abbrev main_call1_v12 : Ref sig .tc := ⟨.hbm, 104, rfl⟩
abbrev main_call1_v13 : Ref sig .tc := ⟨.hbm, 105, rfl⟩
abbrev main_call1_cst : Ref sig .tc := ⟨.hbm, 106, rfl⟩
abbrev main_call1_v14 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_cst_13 : Ref sig .tc := ⟨.hbm, 111, rfl⟩
abbrev main_v56 : Ref sig .tc := ⟨.hbm, 112, rfl⟩
abbrev main_cst_14 : Ref sig .tc := ⟨.hbm, 113, rfl⟩
abbrev main_v57 : Ref sig .tc := ⟨.hbm, 114, rfl⟩

abbrev nD : Nat := 1
abbrev τ : Topo := Topo.v7x

variable {F : FTy → Type} [FloatOps F]

class Facts₀ : Prop where
  reducesTo_S4x19x1024x1024_S4x1024x1024_d1 : S4x19x1024x1024.ReducesTo [1] S4x1024x1024
  h_S_ : 0 < S_.numel
  bcast_S_S4x1024x1024 : S_.BroadcastsInDim S4x1024x1024 (![] : Fin 0 → Fin S4x1024x1024.rank)
  bcast_S4x1024x1024_S4x1x1024x1024_0_2_3 : S4x1024x1024.BroadcastsInDim S4x1x1024x1024 (![0, 2, 3] : Fin 3 → Fin S4x1x1024x1024.rank)
  bcast_S4x1x1024x1024_S4x19x1024x1024_0_1_2_3 : S4x1x1024x1024.BroadcastsInDim S4x19x1024x1024 (![0, 1, 2, 3] : Fin 4 → Fin S4x19x1024x1024.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x1_S500000x3_d1 : Shape.Concatenates [S500000x1, S500000x1, S500000x1] S500000x3 1
  reducesTo_S500000x19_S500000_d1 : S500000x19.ReducesTo [1] S500000
  bcast_S500000x1_S500000x19_0_1 : S500000x1.BroadcastsInDim S500000x19 (![0, 1] : Fin 2 → Fin S500000x19.rank)
  bcast_S_S500000x1 : S_.BroadcastsInDim S500000x1 (![] : Fin 0 → Fin S500000x1.rank)
  shapeCasts_S500000x1_S500000x1x1 : S500000x1.ShapeCasts S500000x1x1
  bcast_S_S500000x1x1 : S_.BroadcastsInDim S500000x1x1 (![] : Fin 0 → Fin S500000x1x1.rank)
  bcast_S1_S1x1x1_2 : S1.BroadcastsInDim S1x1x1 (![2] : Fin 1 → Fin S1x1x1.rank)
  bcast_S1x1x1_S500000x1x1_0_1_2 : S1x1x1.BroadcastsInDim S500000x1x1 (![0, 1, 2] : Fin 3 → Fin S500000x1x1.rank)
  reducesTo_S500000x1x1_S500000x1_d2 : S500000x1x1.ReducesTo [2] S500000x1
  shapeCasts_S500000x1_S500000 : S500000x1.ShapeCasts S500000
  reducesTo_S500000_S_d0 : S500000.ReducesTo [0] S_
  gather_S4x19x1024x1024_S500000x3_S500000x19_1_023_n_n_023_1_11911_wf : GatherDims.WF S4x19x1024x1024 S500000x3 S500000x19 [1] [0, 2, 3] [] [0, 2, 3] [] 1 ![1, 19, 1, 1]
  gather_S4x1024x1024_S500000x3_S500000_n_012_n_n_012_1_111_wf : GatherDims.WF S4x1024x1024 S500000x3 S500000 [] [0, 1, 2] [] [0, 1, 2] [] 1 ![1, 1, 1]
  gather_S500000x19_S500000x1x1_S500000x1_n_1_0_0_1_2_11_wf : GatherDims.WF S500000x19 S500000x1x1 S500000x1 [] [1] [0] [1] [0] 2 ![1, 1]

variable [Facts₀]

def gather_S4x19x1024x1024_S500000x3_S500000x19_1_023_n_n_023_1_11911 : GatherDims S4x19x1024x1024 S500000x3 S500000x19 where
  offsetDims := [1]
  collapsedSliceDims := [0, 2, 3]
  operandBatchingDims := []
  startIndicesBatchingDims := []
  startIndexMap := [0, 2, 3]
  indexVectorDim := 1
  sliceSizes := ![1, 19, 1, 1]
  wf := gather_S4x19x1024x1024_S500000x3_S500000x19_1_023_n_n_023_1_11911_wf
def gather_S4x1024x1024_S500000x3_S500000_n_012_n_n_012_1_111 : GatherDims S4x1024x1024 S500000x3 S500000 where
  offsetDims := []
  collapsedSliceDims := [0, 1, 2]
  operandBatchingDims := []
  startIndicesBatchingDims := []
  startIndexMap := [0, 1, 2]
  indexVectorDim := 1
  sliceSizes := ![1, 1, 1]
  wf := gather_S4x1024x1024_S500000x3_S500000_n_012_n_n_012_1_111_wf
def gather_S500000x19_S500000x1x1_S500000x1_n_1_0_0_1_2_11 : GatherDims S500000x19 S500000x1x1 S500000x1 where
  offsetDims := []
  collapsedSliceDims := [1]
  operandBatchingDims := [0]
  startIndicesBatchingDims := [0]
  startIndexMap := [1]
  indexVectorDim := 2
  sliceSizes := ![1, 1]
  wf := gather_S500000x19_S500000x1x1_S500000x1_n_1_0_0_1_2_11_wf

class Facts : Prop extends Facts₀ where

variable [Facts]
-- ==== Proof.Kernel.Lines.lean ====
/-
  The lines of @main that follow the softmax region: five stretches of host operations (the two gathers'
  index arithmetic and the gathers, the second log-softmax, the label gather, the negated mean), 96 in all.
  Each writes one buffer of its own and allocates nothing; the 96 written buffers are listed once, none of them is
  an argument or the region's result array, so those six arrays are read by the lines and never written; and @main
  is the region continued by the lines.
-/
import proofs.«140789_j19963007992276_1_alg».proof.Proof.Gen.Kernel.Launch
import Idealize.ShloMosaic.Lib.Pipeline.FrameSuffix

set_option maxRecDepth 16384

noncomputable section

namespace Cert.Kernel.Lines

open Cert.Kernel Cert.Kernel.Gen
open Idealize.ShloMosaic Idealize.ShloMosaic.TcCoe
open Idealize.SL Idealize.SL.Sem

variable {F : FTy → Type} [FloatOps F]

/-- The stretches after the region, in order. -/
abbrev stretches : List (List (HloOp τ sig (Elt F))) := [hostOps1, hostOps1_1, hostOps1_2, hostOps1_3, hostOps1_4]

/-- The buffers the 96 lines write, one per line, in order. -/
def written : List (Ref sig .tc) :=
  [
    main_c, main_v1, main_v2, main_c_0, main_v3, main_v4, main_v5, main_c_1,
    main_v6, main_v7, main_c_2, main_v8, main_v9, main_v10, main_c_3, main_v11,
    main_v12, main_c_4, main_v13, main_v14, main_v15, main_v16, main_v17, main_v18,
    main_v19, main_v20, main_c_5, main_v21, main_v22, main_c_6, main_v23, main_v24,
    main_v25, main_c_7, main_v26, main_v27, main_c_8, main_v28, main_v29, main_v30,
    main_c_9, main_v31, main_v32, main_c_10, main_v33, main_v34, main_v35, main_v36,
    main_v37, main_v38, main_v39, main_v40, main_call0_cst, main_call0_v0, main_call0_cst_0, main_call0_v1,
    main_call0_v2, main_call0_v3, main_call0_v4, main_call0_v5, main_call0_v6, main_call0_cst_1, main_call0_v7, main_call0_v8,
    main_call0_v9, main_call0_v10, main_v41, main_v42, main_call1_c, main_call1_v0, main_call1_v1, main_call1_c_0,
    main_call1_v2, main_call1_v3, main_call1_v4, main_call1_v5, main_call1_c_1, main_call1_c_2, main_call1_v6, main_call1_v7,
    main_call1_v8, main_call1_v9, main_call1_v10, main_call1_v11, main_call1_c_3, main_call1_v12, main_call1_v13, main_call1_cst,
    main_call1_v14, main_v43, main_v44, main_v45, main_cst, main_v46, main_cst_11, main_v47 ]

/-- The same as a set of device buffers. -/
abbrev writtenSet : Finset (DevRef τ sig) := (written.map (Proc.devRef (τ := τ) .tc)).toFinset

/-- A line whose one result is a listed buffer writes inside the list. -/
theorem wr (y : Ref sig .tc) (hy : y ∈ written) : ({Proc.devRef (τ := τ) .tc y} : Finset (DevRef τ sig)) ⊆ writtenSet := by
  intro b hb
  rw [Finset.mem_singleton] at hb
  subst hb
  exact List.mem_toFinset.mpr (List.mem_map.mpr ⟨y, hy, rfl⟩)

theorem writes_hostOps1 : (hostOps1 : List (HloOp τ sig (Elt F))).Forall fun op => op.writes ⊆ writtenSet :=
  ⟨
    wr main_c (by decide), wr main_v1 (by decide), wr main_v2 (by decide), wr main_c_0 (by decide),
    wr main_v3 (by decide), wr main_v4 (by decide), wr main_v5 (by decide), wr main_c_1 (by decide),
    wr main_v6 (by decide), wr main_v7 (by decide), wr main_c_2 (by decide), wr main_v8 (by decide),
    wr main_v9 (by decide), wr main_v10 (by decide), wr main_c_3 (by decide), wr main_v11 (by decide),
    wr main_v12 (by decide), wr main_c_4 (by decide), wr main_v13 (by decide), wr main_v14 (by decide),
    wr main_v15 (by decide), wr main_v16 (by decide), wr main_v17 (by decide), wr main_v18 (by decide),
    wr main_v19 (by decide), wr main_v20 (by decide), wr main_c_5 (by decide), wr main_v21 (by decide),
    wr main_v22 (by decide), wr main_c_6 (by decide), wr main_v23 (by decide), wr main_v24 (by decide),
    wr main_v25 (by decide), wr main_c_7 (by decide), wr main_v26 (by decide), wr main_v27 (by decide),
    wr main_c_8 (by decide), wr main_v28 (by decide), wr main_v29 (by decide), wr main_v30 (by decide),
    wr main_c_9 (by decide), wr main_v31 (by decide), wr main_v32 (by decide), wr main_c_10 (by decide),
    wr main_v33 (by decide), wr main_v34 (by decide), wr main_v35 (by decide), wr main_v36 (by decide),
    wr main_v37 (by decide), wr main_v38 (by decide), wr main_v39 (by decide), wr main_v40 (by decide)⟩

theorem fresh_hostOps1 : (hostOps1 : List (HloOp τ sig (Elt F))).Forall fun op => op.fresh = ∅ := by
  simp only [List.Forall]; repeat' constructor

theorem writes_hostOps1_1 : (hostOps1_1 : List (HloOp τ sig (Elt F))).Forall fun op => op.writes ⊆ writtenSet :=
  ⟨
    wr main_call0_cst (by decide), wr main_call0_v0 (by decide), wr main_call0_cst_0 (by decide), wr main_call0_v1 (by decide),
    wr main_call0_v2 (by decide), wr main_call0_v3 (by decide), wr main_call0_v4 (by decide), wr main_call0_v5 (by decide),
    wr main_call0_v6 (by decide), wr main_call0_cst_1 (by decide), wr main_call0_v7 (by decide), wr main_call0_v8 (by decide),
    wr main_call0_v9 (by decide), wr main_call0_v10 (by decide), wr main_v41 (by decide)⟩

theorem fresh_hostOps1_1 : (hostOps1_1 : List (HloOp τ sig (Elt F))).Forall fun op => op.fresh = ∅ := by
  simp only [List.Forall]; repeat' constructor

theorem writes_hostOps1_2 : (hostOps1_2 : List (HloOp τ sig (Elt F))).Forall fun op => op.writes ⊆ writtenSet :=
  wr main_v42 (by decide)

theorem fresh_hostOps1_2 : (hostOps1_2 : List (HloOp τ sig (Elt F))).Forall fun op => op.fresh = ∅ := by
  simp only [List.Forall]; repeat' constructor

theorem writes_hostOps1_3 : (hostOps1_3 : List (HloOp τ sig (Elt F))).Forall fun op => op.writes ⊆ writtenSet :=
  ⟨
    wr main_call1_c (by decide), wr main_call1_v0 (by decide), wr main_call1_v1 (by decide), wr main_call1_c_0 (by decide),
    wr main_call1_v2 (by decide), wr main_call1_v3 (by decide), wr main_call1_v4 (by decide), wr main_call1_v5 (by decide),
    wr main_call1_c_1 (by decide), wr main_call1_c_2 (by decide), wr main_call1_v6 (by decide), wr main_call1_v7 (by decide),
    wr main_call1_v8 (by decide), wr main_call1_v9 (by decide), wr main_call1_v10 (by decide), wr main_call1_v11 (by decide),
    wr main_call1_c_3 (by decide), wr main_call1_v12 (by decide), wr main_call1_v13 (by decide), wr main_call1_cst (by decide),
    wr main_call1_v14 (by decide), wr main_v43 (by decide)⟩

theorem fresh_hostOps1_3 : (hostOps1_3 : List (HloOp τ sig (Elt F))).Forall fun op => op.fresh = ∅ := by
  simp only [List.Forall]; repeat' constructor

theorem writes_hostOps1_4 : (hostOps1_4 : List (HloOp τ sig (Elt F))).Forall fun op => op.writes ⊆ writtenSet :=
  ⟨
    wr main_v44 (by decide), wr main_v45 (by decide), wr main_cst (by decide), wr main_v46 (by decide),
    wr main_cst_11 (by decide), wr main_v47 (by decide)⟩

theorem fresh_hostOps1_4 : (hostOps1_4 : List (HloOp τ sig (Elt F))).Forall fun op => op.fresh = ∅ := by
  simp only [List.Forall]; repeat' constructor

/-- Every line writes inside the list. -/
theorem writes_all : ∀ ops ∈ (stretches : List (List (HloOp τ sig (Elt F)))), ∀ op ∈ ops, op.writes ⊆ writtenSet := by
  intro ops hops op hop
  simp only [List.mem_cons, List.mem_nil_iff, or_false] at hops
  rcases hops with rfl | rfl | rfl | rfl | rfl
  · exact (List.forall_iff_forall_mem.mp writes_hostOps1) op hop
  · exact (List.forall_iff_forall_mem.mp writes_hostOps1_1) op hop
  · exact (List.forall_iff_forall_mem.mp writes_hostOps1_2) op hop
  · exact (List.forall_iff_forall_mem.mp writes_hostOps1_3) op hop
  · exact (List.forall_iff_forall_mem.mp writes_hostOps1_4) op hop

/-- No line allocates. -/
theorem fresh_all : ∀ ops ∈ (stretches : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh_hostOps1) op hop
  · exact (List.forall_iff_forall_mem.mp fresh_hostOps1_1) op hop
  · exact (List.forall_iff_forall_mem.mp fresh_hostOps1_2) op hop
  · exact (List.forall_iff_forall_mem.mp fresh_hostOps1_3) op hop
  · exact (List.forall_iff_forall_mem.mp fresh_hostOps1_4) op hop

/-- Every line touches TensorCore references only. -/
theorem bufs_all : ∀ ops ∈ (stretches : List (List (HloOp τ sig (Elt F)))), ∀ op ∈ ops, op.bufs ⊆ StableHlo.tcRefs τ sig := by
  intro ops hops op hop
  simp only [List.mem_cons, List.mem_nil_iff, or_false] at hops
  rcases hops with rfl | rfl | rfl | rfl | rfl
  · exact (List.forall_iff_forall_mem.mp hostOps1_sub) op hop
  · exact (List.forall_iff_forall_mem.mp hostOps1_1_sub) op hop
  · exact (List.forall_iff_forall_mem.mp hostOps1_2_sub) op hop
  · exact (List.forall_iff_forall_mem.mp hostOps1_3_sub) op hop
  · exact (List.forall_iff_forall_mem.mp hostOps1_4_sub) op hop

/-- A buffer outside the list is written by no line. -/
theorem not_written {r : Ref sig .tc} (hr : r ∉ written) :
    ∀ ops ∈ (stretches : List (List (HloOp τ sig (Elt F)))), ∀ op ∈ ops, Proc.devRef (τ := τ) .tc r ∉ op.writes := by
  intro ops hops op hop hb
  obtain ⟨y, hy, he⟩ := List.mem_map.mp (List.mem_toFinset.mp (writes_all ops hops op hop hb))
  exact hr (Proc.devRef_injective _ he ▸ hy)

/-- So it holds after all the lines what it held before them. -/
theorem kept {r : Ref sig .tc} (hr : r ∉ written) (V : Valuation τ sig (Elt F)) :
    StableHlo.after (stretches (F := F)).flatten V (Proc.devRef .tc r) = V (Proc.devRef .tc r) :=
  StableHlo.after_of_forall_not_mem _ V fun op hop => by
    obtain ⟨ops, hops, hin⟩ := List.mem_flatten.mp hop
    exact not_written hr ops hops op hin

theorem arg0_not_written : main_arg0 ∉ written := by decide
theorem arg1_not_written : main_arg1 ∉ written := by decide
theorem arg2_not_written : main_arg2 ∉ written := by decide
theorem arg3_not_written : main_arg3 ∉ written := by decide
theorem arg4_not_written : main_arg4 ∉ written := by decide
theorem v0_not_written : main_v0 ∉ written := by decide

end Cert.Kernel.Lines

end
-- ==== Proof.Kernel.Region.lean ====
/-
  The softmax region and the run of @main around it.

  The region's grid has 4 × 16 points; at point (b, h) the input window holds rows 64·h … 64·h + 63 of image b of the
  first argument, all 19 channels and all 1024 columns, and the output window the same rows of the result array. The
  body reads the input block whole, reads the output buffer (a value it never uses) and overwrites the output buffer
  whole with one value computed from the input block alone (the skeleton's payload: the exponential of the block less
  its channel-wise maximum, over the channel-wise sum of those exponentials). So after the body the input buffer holds
  its block still and the output buffer that value of the block; nothing else is touched.

  @main is the region followed by the 96 later lines, which read the result array and the arguments and write
  neither. Hence every weakly fair execution terminates without a fault, the result array ends at what the blocks
  written back make of it, every other buffer at what the later lines compute, and the five arguments as launched.
-/
import proofs.«140789_j19963007992276_1_alg».proof.Proof.Gen.Kernel.Launch
import proofs.«140789_j19963007992276_1_alg».proof.Proof.Gen.Kernel.Skeleton
import proofs.«140789_j19963007992276_1_alg».proof.Proof.Gen.Kernel.Points
import proofs.«140789_j19963007992276_1_alg».proof.Proof.Kernel.Lines
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents on core `c` when the region is entered: the launch contents, no line preceding the region. -/
abbrev entry (c : Dev nD) : Valuation τ sig (Elt F) := StableHlo.after (List.flatten []) (fun b => m (c, b))
/-- The same read at a TensorCore reference. -/
abbrev entryAt (c : Dev nD) (b : Ref sig .tc) : Buf (Elt F) ((c : Thread nD τ).loc b) := entry m c (Proc.devRef .tc b)

theorem entryAt_eq (c : Dev nD) (b : Ref sig .tc) : entryAt m c b = m ((c : Thread nD τ).loc b) := rfl

/-- @main is the region continued by the later lines. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain ((Lines.stretches (F := F)).map StableHlo.seq)) :=
  Pipeline.hmain_around cfgs 0 defs₀ 𝒱₀ m main [] Lines.stretches (by trivial) (by trivial) main_chain

/-- The later lines touch the two arrays of the region and the buffers that bypass it only. -/
theorem lines_within : ∀ ops ∈ (Lines.stretches : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (Lines.bufs_all ops hops op hop)

/-- Neither array of the region is among the buffers the later lines write. -/
theorem arrays_not_written : ∀ w, Pipeline.arrRef spec0 w ∉ Lines.written := by decide

/-- So the later lines write neither. -/
theorem lines_keep : ∀ ops ∈ (Lines.stretches : List (List (HloOp τ sig (Elt F)))), ∀ op ∈ ops,
    ∀ w, Proc.devRef .tc (Pipeline.arrRef spec0 w) ∉ op.writes :=
  fun ops hops op hop w => Lines.not_written (arrays_not_written w) ops hops op hop

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The input window's current buffer holds its block at every point, fetched there or not, for any proof data over
    the entry contents whose body leaves the block in place: unfetched, the block index has not moved. -/
theorem input_found {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- The whole block as a rectangle: what the body loads and what it stores through. -/
abbrev whole : Rect S1x19x64x1024 := Rect.unit (s := S1x19x64x1024) ![0, 0, 0, 0] S1x19x64x1024.size inb_S1x19x64x1024_S1x19x64x1024_0_0_0_0

/-- What the output buffer holds after the body, from the input block: its one store, of the payload of the block. -/
def stored (x0 : Vec F S1x19x64x1024 .f32) : Vec F S1x19x64x1024 .f32 :=
  View.canon [⟨whole, k0_pay1 (View.ld x0 whole)⟩]

/-- The one store covers the buffer. -/
theorem store_covers (p0 : Vec F S1x19x64x1024 .f32) (y : S1x19x64x1024.Idx) :
    ∃ pc ∈ ([⟨whole, p0⟩] : List (View.Piece (Elt F) S1x19x64x1024 .f32)), y ∈ pc.1.set :=
  View.cover_of_tiled [⟨whole, p0⟩] S1x19x64x1024.size (by rfl) y

set_option maxHeartbeats 1000000 in
/-- The body on whole staging memrefs, the input's at contents `x0` and the output's at anything, runs to the
    continuation holding the input's as it was and the output's at `stored x0`. -/
theorem body_runs (c : Dev nD) (E : Set ℕ) (i : grid0.Coords) (arg2 : Memref sig .tc .vmem S1x19x64x1024 .f32) (harg2 : arg2.IsWhole) (arg3 : Memref sig .tc .vmem S1x19x64x1024 .f32) (harg3 : arg3.IsWhole)
    (x0 : Vec F S1x19x64x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (stored x0)) -∗ K ⟨⟩))
      ⊢ wp frame (wpE (defs₀ (F := F)) Variants.none c none) E (cc0__softmax_kernel i arg2 harg2 arg3 harg3) K := by
  simp only [cc0__softmax_kernel_eq_skeleton]; unfold cc0__softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (store_covers _)

/-! ## The proof data -/

/-- On core `c`: the arrays as the region finds them; after the body at point `t` the input's buffer at its block and
    the output's at `stored` of that block; the invariant the scoped rest and the generator register, untouched;
    nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => stored (blockAt m c 0 t)
  Φ _ := Pipeline.ΦA spec0 c
  q _ := fullShare
  owed _ := 0

theorem arrays_eq (c : Dev nD) (w : Fin cfg0.W) : (dats m 0 c).A w = entryAt m c (Pipeline.arrRef spec0 w) := by
  dsimp only [dats]

theorem after_in (c : Dev nD) (t : Fin cfg0.N) : (dats m 0 c).after 0 t = blockAt m c 0 t := by dsimp only [dats]
theorem after_out (c : Dev nD) (t : Fin cfg0.N) : (dats m 0 c).after 1 t = stored (blockAt m c 0 t) := by dsimp only [dats]

theorem before_in (c : Dev nD) (t : Fin cfg0.N) (d) : (dats m 0 c).before 0 t d = blockAt m c 0 t :=
  input_found m (dats m 0 c) (arrays_eq m c 0) (after_in m c) t d

/-! ## The body obligation -/

/-- What the body is called with at point `t`, the two windows one by one, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so `body_runs` applies; the invariant and the core's
    dues pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (body_runs c Set.univ (grid0.coords t) _ _ _ _ (blockAt m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact body_at m c t

/-! ## The run -/

/-- The buffer contents on core `c` after the later lines. -/
abbrev atEnd : (c : Dev nD) → (b : Ref sig .tc) → Buf (Elt F) ((c.tc : Thread nD τ).loc b) :=
  Pipeline.afterTail₀ cfgs (dats m) 0 (entry m) Lines.stretches

set_option backward.isDefEq.respectTransparency.types false in
/-- Every weakly fair execution of @main terminates, without a fault, with each array of the region at what the
    blocks written back make of it and every other unscoped buffer as the later lines leave it. -/
theorem run_main : θ_run defs (onTc (τ := τ) (main (F := F))) (s₀ m ρ) (Pipeline.FramePost cfgs (dats m) 0 (atEnd m)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry m) (opss := Lines.stretches) (hsub := lines_within) (hfresh := Lines.fresh_all) (hkeep := lines_keep)
    (hmain := main_around m Variants.none) (hA := arrays_eq m) (hΦ := fun _ _ => rfl)

/-! ## The arguments end as launched -/

/-- A buffer that is no array of the region and that no later line writes ends as launched. -/
theorem atEnd_kept (c : Dev nD) {r : Ref sig .tc} (hr : r ∉ Lines.written) (hne : ∀ w, Pipeline.arrRef spec0 w ≠ r) :
    atEnd m c r = m ((c.tc : Thread nD τ).loc r) := by
  show StableHlo.after (Lines.stretches (F := F)).flatten _ (Proc.devRef .tc r) = _
  rw [Lines.kept hr, Pipeline.withArrays_of_ne _ c (entry m c) _ r hne]
  rfl

/-- The frame: every weakly fair execution terminates, nothing faulting, the five arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans (arrays_eq m c 0)),
     ((h c).2 main_arg1 (Pipeline.mem_restRefs_of main_arg1 (by decide) (by decide))).trans (atEnd_kept m c Lines.arg1_not_written (by decide)),
     ((h c).2 main_arg2 (Pipeline.mem_restRefs_of main_arg2 (by decide) (by decide))).trans (atEnd_kept m c Lines.arg2_not_written (by decide)),
     ((h c).2 main_arg3 (Pipeline.mem_restRefs_of main_arg3 (by decide) (by decide))).trans (atEnd_kept m c Lines.arg3_not_written (by decide)),
     ((h c).2 main_arg4 (Pipeline.mem_restRefs_of main_arg4 (by decide) (by decide))).trans (atEnd_kept m c Lines.arg4_not_written (by decide))⟩)
    (run_main m ρ)

end Cert.Kernel.Region

end
-- ==== Proof.KernelIdeal.Lines.lean ====
/-
  The lines of @main that follow the softmax region: five stretches of host operations (the two gathers'
  index arithmetic and the gathers, the second log-softmax, the label gather, the negated mean), 96 in all.
  Each writes one buffer of its own and allocates nothing; the 96 written buffers are listed once, none of them is
  an argument or the region's result array, so those six arrays are read by the lines and never written; and @main
  is the region continued by the lines.
-/
import proofs.«140789_j19963007992276_1_alg».proof.Proof.Gen.KernelIdeal.Launch
import Idealize.ShloMosaic.Lib.Pipeline.FrameSuffix

set_option maxRecDepth 16384

noncomputable section

namespace Cert.KernelIdeal.Lines

open Cert.KernelIdeal Cert.KernelIdeal.Gen
open Idealize.ShloMosaic Idealize.ShloMosaic.TcCoe
open Idealize.SL Idealize.SL.Sem

variable {F : FTy → Type} [FloatOps F]

/-- The stretches after the region, in order. -/
abbrev stretches : List (List (HloOp τ sig (Elt F))) := [hostOps1, hostOps1_1, hostOps1_2, hostOps1_3, hostOps1_4]

/-- The buffers the 96 lines write, one per line, in order. -/
def written : List (Ref sig .tc) :=
  [
    main_c, main_v1, main_v2, main_c_0, main_v3, main_v4, main_v5, main_c_1,
    main_v6, main_v7, main_c_2, main_v8, main_v9, main_v10, main_c_3, main_v11,
    main_v12, main_c_4, main_v13, main_v14, main_v15, main_v16, main_v17, main_v18,
    main_v19, main_v20, main_c_5, main_v21, main_v22, main_c_6, main_v23, main_v24,
    main_v25, main_c_7, main_v26, main_v27, main_c_8, main_v28, main_v29, main_v30,
    main_c_9, main_v31, main_v32, main_c_10, main_v33, main_v34, main_v35, main_v36,
    main_v37, main_v38, main_v39, main_v40, main_call0_cst, main_call0_v0, main_call0_cst_0, main_call0_v1,
    main_call0_v2, main_call0_v3, main_call0_v4, main_call0_v5, main_call0_v6, main_call0_cst_1, main_call0_v7, main_call0_v8,
    main_call0_v9, main_call0_v10, main_v41, main_v42, main_call1_c, main_call1_v0, main_call1_v1, main_call1_c_0,
    main_call1_v2, main_call1_v3, main_call1_v4, main_call1_v5, main_call1_c_1, main_call1_c_2, main_call1_v6, main_call1_v7,
    main_call1_v8, main_call1_v9, main_call1_v10, main_call1_v11, main_call1_c_3, main_call1_v12, main_call1_v13, main_call1_cst,
    main_call1_v14, main_v43, main_v44, main_v45, main_cst, main_v46, main_cst_11, main_v47 ]

/-- The same as a set of device buffers. -/
abbrev writtenSet : Finset (DevRef τ sig) := (written.map (Proc.devRef (τ := τ) .tc)).toFinset

/-- A line whose one result is a listed buffer writes inside the list. -/
theorem wr (y : Ref sig .tc) (hy : y ∈ written) : ({Proc.devRef (τ := τ) .tc y} : Finset (DevRef τ sig)) ⊆ writtenSet := by
  intro b hb
  rw [Finset.mem_singleton] at hb
  subst hb
  exact List.mem_toFinset.mpr (List.mem_map.mpr ⟨y, hy, rfl⟩)

theorem writes_hostOps1 : (hostOps1 : List (HloOp τ sig (Elt F))).Forall fun op => op.writes ⊆ writtenSet :=
  ⟨
    wr main_c (by decide), wr main_v1 (by decide), wr main_v2 (by decide), wr main_c_0 (by decide),
    wr main_v3 (by decide), wr main_v4 (by decide), wr main_v5 (by decide), wr main_c_1 (by decide),
    wr main_v6 (by decide), wr main_v7 (by decide), wr main_c_2 (by decide), wr main_v8 (by decide),
    wr main_v9 (by decide), wr main_v10 (by decide), wr main_c_3 (by decide), wr main_v11 (by decide),
    wr main_v12 (by decide), wr main_c_4 (by decide), wr main_v13 (by decide), wr main_v14 (by decide),
    wr main_v15 (by decide), wr main_v16 (by decide), wr main_v17 (by decide), wr main_v18 (by decide),
    wr main_v19 (by decide), wr main_v20 (by decide), wr main_c_5 (by decide), wr main_v21 (by decide),
    wr main_v22 (by decide), wr main_c_6 (by decide), wr main_v23 (by decide), wr main_v24 (by decide),
    wr main_v25 (by decide), wr main_c_7 (by decide), wr main_v26 (by decide), wr main_v27 (by decide),
    wr main_c_8 (by decide), wr main_v28 (by decide), wr main_v29 (by decide), wr main_v30 (by decide),
    wr main_c_9 (by decide), wr main_v31 (by decide), wr main_v32 (by decide), wr main_c_10 (by decide),
    wr main_v33 (by decide), wr main_v34 (by decide), wr main_v35 (by decide), wr main_v36 (by decide),
    wr main_v37 (by decide), wr main_v38 (by decide), wr main_v39 (by decide), wr main_v40 (by decide)⟩

theorem fresh_hostOps1 : (hostOps1 : List (HloOp τ sig (Elt F))).Forall fun op => op.fresh = ∅ := by
  simp only [List.Forall]; repeat' constructor

theorem writes_hostOps1_1 : (hostOps1_1 : List (HloOp τ sig (Elt F))).Forall fun op => op.writes ⊆ writtenSet :=
  ⟨
    wr main_call0_cst (by decide), wr main_call0_v0 (by decide), wr main_call0_cst_0 (by decide), wr main_call0_v1 (by decide),
    wr main_call0_v2 (by decide), wr main_call0_v3 (by decide), wr main_call0_v4 (by decide), wr main_call0_v5 (by decide),
    wr main_call0_v6 (by decide), wr main_call0_cst_1 (by decide), wr main_call0_v7 (by decide), wr main_call0_v8 (by decide),
    wr main_call0_v9 (by decide), wr main_call0_v10 (by decide), wr main_v41 (by decide)⟩

theorem fresh_hostOps1_1 : (hostOps1_1 : List (HloOp τ sig (Elt F))).Forall fun op => op.fresh = ∅ := by
  simp only [List.Forall]; repeat' constructor

theorem writes_hostOps1_2 : (hostOps1_2 : List (HloOp τ sig (Elt F))).Forall fun op => op.writes ⊆ writtenSet :=
  wr main_v42 (by decide)

theorem fresh_hostOps1_2 : (hostOps1_2 : List (HloOp τ sig (Elt F))).Forall fun op => op.fresh = ∅ := by
  simp only [List.Forall]; repeat' constructor

theorem writes_hostOps1_3 : (hostOps1_3 : List (HloOp τ sig (Elt F))).Forall fun op => op.writes ⊆ writtenSet :=
  ⟨
    wr main_call1_c (by decide), wr main_call1_v0 (by decide), wr main_call1_v1 (by decide), wr main_call1_c_0 (by decide),
    wr main_call1_v2 (by decide), wr main_call1_v3 (by decide), wr main_call1_v4 (by decide), wr main_call1_v5 (by decide),
    wr main_call1_c_1 (by decide), wr main_call1_c_2 (by decide), wr main_call1_v6 (by decide), wr main_call1_v7 (by decide),
    wr main_call1_v8 (by decide), wr main_call1_v9 (by decide), wr main_call1_v10 (by decide), wr main_call1_v11 (by decide),
    wr main_call1_c_3 (by decide), wr main_call1_v12 (by decide), wr main_call1_v13 (by decide), wr main_call1_cst (by decide),
    wr main_call1_v14 (by decide), wr main_v43 (by decide)⟩

theorem fresh_hostOps1_3 : (hostOps1_3 : List (HloOp τ sig (Elt F))).Forall fun op => op.fresh = ∅ := by
  simp only [List.Forall]; repeat' constructor

theorem writes_hostOps1_4 : (hostOps1_4 : List (HloOp τ sig (Elt F))).Forall fun op => op.writes ⊆ writtenSet :=
  ⟨
    wr main_v44 (by decide), wr main_v45 (by decide), wr main_cst (by decide), wr main_v46 (by decide),
    wr main_cst_11 (by decide), wr main_v47 (by decide)⟩

theorem fresh_hostOps1_4 : (hostOps1_4 : List (HloOp τ sig (Elt F))).Forall fun op => op.fresh = ∅ := by
  simp only [List.Forall]; repeat' constructor

/-- Every line writes inside the list. -/
theorem writes_all : ∀ ops ∈ (stretches : List (List (HloOp τ sig (Elt F)))), ∀ op ∈ ops, op.writes ⊆ writtenSet := by
  intro ops hops op hop
  simp only [List.mem_cons, List.mem_nil_iff, or_false] at hops
  rcases hops with rfl | rfl | rfl | rfl | rfl
  · exact (List.forall_iff_forall_mem.mp writes_hostOps1) op hop
  · exact (List.forall_iff_forall_mem.mp writes_hostOps1_1) op hop
  · exact (List.forall_iff_forall_mem.mp writes_hostOps1_2) op hop
  · exact (List.forall_iff_forall_mem.mp writes_hostOps1_3) op hop
  · exact (List.forall_iff_forall_mem.mp writes_hostOps1_4) op hop

/-- No line allocates. -/
theorem fresh_all : ∀ ops ∈ (stretches : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh_hostOps1) op hop
  · exact (List.forall_iff_forall_mem.mp fresh_hostOps1_1) op hop
  · exact (List.forall_iff_forall_mem.mp fresh_hostOps1_2) op hop
  · exact (List.forall_iff_forall_mem.mp fresh_hostOps1_3) op hop
  · exact (List.forall_iff_forall_mem.mp fresh_hostOps1_4) op hop

/-- Every line touches TensorCore references only. -/
theorem bufs_all : ∀ ops ∈ (stretches : List (List (HloOp τ sig (Elt F)))), ∀ op ∈ ops, op.bufs ⊆ StableHlo.tcRefs τ sig := by
  intro ops hops op hop
  simp only [List.mem_cons, List.mem_nil_iff, or_false] at hops
  rcases hops with rfl | rfl | rfl | rfl | rfl
  · exact (List.forall_iff_forall_mem.mp hostOps1_sub) op hop
  · exact (List.forall_iff_forall_mem.mp hostOps1_1_sub) op hop
  · exact (List.forall_iff_forall_mem.mp hostOps1_2_sub) op hop
  · exact (List.forall_iff_forall_mem.mp hostOps1_3_sub) op hop
  · exact (List.forall_iff_forall_mem.mp hostOps1_4_sub) op hop

/-- A buffer outside the list is written by no line. -/
theorem not_written {r : Ref sig .tc} (hr : r ∉ written) :
    ∀ ops ∈ (stretches : List (List (HloOp τ sig (Elt F)))), ∀ op ∈ ops, Proc.devRef (τ := τ) .tc r ∉ op.writes := by
  intro ops hops op hop hb
  obtain ⟨y, hy, he⟩ := List.mem_map.mp (List.mem_toFinset.mp (writes_all ops hops op hop hb))
  exact hr (Proc.devRef_injective _ he ▸ hy)

/-- So it holds after all the lines what it held before them. -/
theorem kept {r : Ref sig .tc} (hr : r ∉ written) (V : Valuation τ sig (Elt F)) :
    StableHlo.after (stretches (F := F)).flatten V (Proc.devRef .tc r) = V (Proc.devRef .tc r) :=
  StableHlo.after_of_forall_not_mem _ V fun op hop => by
    obtain ⟨ops, hops, hin⟩ := List.mem_flatten.mp hop
    exact not_written hr ops hops op hin

theorem arg0_not_written : main_arg0 ∉ written := by decide
theorem arg1_not_written : main_arg1 ∉ written := by decide
theorem arg2_not_written : main_arg2 ∉ written := by decide
theorem arg3_not_written : main_arg3 ∉ written := by decide
theorem arg4_not_written : main_arg4 ∉ written := by decide
theorem v0_not_written : main_v0 ∉ written := by decide

end Cert.KernelIdeal.Lines

end
-- ==== Proof.KernelIdeal.Region.lean ====
/-
  The softmax region and the run of @main around it.

  The region's grid has 4 × 16 points; at point (b, h) the input window holds rows 64·h … 64·h + 63 of image b of the
  first argument, all 19 channels and all 1024 columns, and the output window the same rows of the result array. The
  body reads the input block whole, reads the output buffer (a value it never uses) and overwrites the output buffer
  whole with one value computed from the input block alone (the skeleton's payload: the exponential of the block less
  its channel-wise maximum, over the channel-wise sum of those exponentials). So after the body the input buffer holds
  its block still and the output buffer that value of the block; nothing else is touched.

  @main is the region followed by the 96 later lines, which read the result array and the arguments and write
  neither. Hence every weakly fair execution terminates without a fault, the result array ends at what the blocks
  written back make of it, every other buffer at what the later lines compute, and the five arguments as launched.
-/
import proofs.«140789_j19963007992276_1_alg».proof.Proof.Gen.KernelIdeal.Launch
import proofs.«140789_j19963007992276_1_alg».proof.Proof.Gen.KernelIdeal.Skeleton
import proofs.«140789_j19963007992276_1_alg».proof.Proof.Gen.KernelIdeal.Points
import proofs.«140789_j19963007992276_1_alg».proof.Proof.KernelIdeal.Lines
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents on core `c` when the region is entered: the launch contents, no line preceding the region. -/
abbrev entry (c : Dev nD) : Valuation τ sig (Elt F) := StableHlo.after (List.flatten []) (fun b => m (c, b))
/-- The same read at a TensorCore reference. -/
abbrev entryAt (c : Dev nD) (b : Ref sig .tc) : Buf (Elt F) ((c : Thread nD τ).loc b) := entry m c (Proc.devRef .tc b)

theorem entryAt_eq (c : Dev nD) (b : Ref sig .tc) : entryAt m c b = m ((c : Thread nD τ).loc b) := rfl

/-- @main is the region continued by the later lines. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain ((Lines.stretches (F := F)).map StableHlo.seq)) :=
  Pipeline.hmain_around cfgs 0 defs₀ 𝒱₀ m main [] Lines.stretches (by trivial) (by trivial) main_chain

/-- The later lines touch the two arrays of the region and the buffers that bypass it only. -/
theorem lines_within : ∀ ops ∈ (Lines.stretches : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (Lines.bufs_all ops hops op hop)

/-- Neither array of the region is among the buffers the later lines write. -/
theorem arrays_not_written : ∀ w, Pipeline.arrRef spec0 w ∉ Lines.written := by decide

/-- So the later lines write neither. -/
theorem lines_keep : ∀ ops ∈ (Lines.stretches : List (List (HloOp τ sig (Elt F)))), ∀ op ∈ ops,
    ∀ w, Proc.devRef .tc (Pipeline.arrRef spec0 w) ∉ op.writes :=
  fun ops hops op hop w => Lines.not_written (arrays_not_written w) ops hops op hop

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The input window's current buffer holds its block at every point, fetched there or not, for any proof data over
    the entry contents whose body leaves the block in place: unfetched, the block index has not moved. -/
theorem input_found {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- The whole block as a rectangle: what the body loads and what it stores through. -/
abbrev whole : Rect S1x19x64x1024 := Rect.unit (s := S1x19x64x1024) ![0, 0, 0, 0] S1x19x64x1024.size inb_S1x19x64x1024_S1x19x64x1024_0_0_0_0

/-- What the output buffer holds after the body, from the input block: its one store, of the payload of the block. -/
def stored (x0 : Vec F S1x19x64x1024 .f32) : Vec F S1x19x64x1024 .f32 :=
  View.canon [⟨whole, k0_pay1 (View.ld x0 whole)⟩]

/-- The one store covers the buffer. -/
theorem store_covers (p0 : Vec F S1x19x64x1024 .f32) (y : S1x19x64x1024.Idx) :
    ∃ pc ∈ ([⟨whole, p0⟩] : List (View.Piece (Elt F) S1x19x64x1024 .f32)), y ∈ pc.1.set :=
  View.cover_of_tiled [⟨whole, p0⟩] S1x19x64x1024.size (by rfl) y

set_option maxHeartbeats 1000000 in
/-- The body on whole staging memrefs, the input's at contents `x0` and the output's at anything, runs to the
    continuation holding the input's as it was and the output's at `stored x0`. -/
theorem body_runs (c : Dev nD) (E : Set ℕ) (i : grid0.Coords) (arg2 : Memref sig .tc .vmem S1x19x64x1024 .f32) (harg2 : arg2.IsWhole) (arg3 : Memref sig .tc .vmem S1x19x64x1024 .f32) (harg3 : arg3.IsWhole)
    (x0 : Vec F S1x19x64x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (stored x0)) -∗ K ⟨⟩))
      ⊢ wp frame (wpE (defs₀ (F := F)) Variants.none c none) E (cc0__softmax_kernel i arg2 harg2 arg3 harg3) K := by
  simp only [cc0__softmax_kernel_eq_skeleton]; unfold cc0__softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (store_covers _)

/-! ## The proof data -/

/-- On core `c`: the arrays as the region finds them; after the body at point `t` the input's buffer at its block and
    the output's at `stored` of that block; the invariant the scoped rest and the generator register, untouched;
    nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => stored (blockAt m c 0 t)
  Φ _ := Pipeline.ΦA spec0 c
  q _ := fullShare
  owed _ := 0

theorem arrays_eq (c : Dev nD) (w : Fin cfg0.W) : (dats m 0 c).A w = entryAt m c (Pipeline.arrRef spec0 w) := by
  dsimp only [dats]

theorem after_in (c : Dev nD) (t : Fin cfg0.N) : (dats m 0 c).after 0 t = blockAt m c 0 t := by dsimp only [dats]
theorem after_out (c : Dev nD) (t : Fin cfg0.N) : (dats m 0 c).after 1 t = stored (blockAt m c 0 t) := by dsimp only [dats]

theorem before_in (c : Dev nD) (t : Fin cfg0.N) (d) : (dats m 0 c).before 0 t d = blockAt m c 0 t :=
  input_found m (dats m 0 c) (arrays_eq m c 0) (after_in m c) t d

/-! ## The body obligation -/

/-- What the body is called with at point `t`, the two windows one by one, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so `body_runs` applies; the invariant and the core's
    dues pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (body_runs c Set.univ (grid0.coords t) _ _ _ _ (blockAt m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact body_at m c t

/-! ## The run -/

/-- The buffer contents on core `c` after the later lines. -/
abbrev atEnd : (c : Dev nD) → (b : Ref sig .tc) → Buf (Elt F) ((c.tc : Thread nD τ).loc b) :=
  Pipeline.afterTail₀ cfgs (dats m) 0 (entry m) Lines.stretches

set_option backward.isDefEq.respectTransparency.types false in
/-- Every weakly fair execution of @main terminates, without a fault, with each array of the region at what the
    blocks written back make of it and every other unscoped buffer as the later lines leave it. -/
theorem run_main : θ_run defs (onTc (τ := τ) (main (F := F))) (s₀ m ρ) (Pipeline.FramePost cfgs (dats m) 0 (atEnd m)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry m) (opss := Lines.stretches) (hsub := lines_within) (hfresh := Lines.fresh_all) (hkeep := lines_keep)
    (hmain := main_around m Variants.none) (hA := arrays_eq m) (hΦ := fun _ _ => rfl)

/-! ## The arguments end as launched -/

/-- A buffer that is no array of the region and that no later line writes ends as launched. -/
theorem atEnd_kept (c : Dev nD) {r : Ref sig .tc} (hr : r ∉ Lines.written) (hne : ∀ w, Pipeline.arrRef spec0 w ≠ r) :
    atEnd m c r = m ((c.tc : Thread nD τ).loc r) := by
  show StableHlo.after (Lines.stretches (F := F)).flatten _ (Proc.devRef .tc r) = _
  rw [Lines.kept hr, Pipeline.withArrays_of_ne _ c (entry m c) _ r hne]
  rfl

/-- The frame: every weakly fair execution terminates, nothing faulting, the five arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans (arrays_eq m c 0)),
     ((h c).2 main_arg1 (Pipeline.mem_restRefs_of main_arg1 (by decide) (by decide))).trans (atEnd_kept m c Lines.arg1_not_written (by decide)),
     ((h c).2 main_arg2 (Pipeline.mem_restRefs_of main_arg2 (by decide) (by decide))).trans (atEnd_kept m c Lines.arg2_not_written (by decide)),
     ((h c).2 main_arg3 (Pipeline.mem_restRefs_of main_arg3 (by decide) (by decide))).trans (atEnd_kept m c Lines.arg3_not_written (by decide)),
     ((h c).2 main_arg4 (Pipeline.mem_restRefs_of main_arg4 (by decide) (by decide))).trans (atEnd_kept m c Lines.arg4_not_written (by decide))⟩)
    (run_main m ρ)

end Cert.KernelIdeal.Region

end
-- ==== Proof.LibTypedRef.lean ====
/-
  A typed reference's two transports cancel.

  A tensor value's buffer is named by a reference together with the fact that the buffer's type is the value's; contents
  at the value's type are carried to contents of the buffer along that fact, and back. Carrying there and back (or back
  and there) is the identity, whatever the reference: so in a line of operations on typed references every
  intermediate buffer's pair of transports disappears, and only the ends remain.
-/
import Idealize.ShloMosaic.Lib.StableHlo

namespace Cert.Lib.TypedRef

open Idealize.ShloMosaic

variable {sig : RefSig} {Val : EltTy → Type} {T : BufTy}

/-- To the buffer's type and back. -/
theorem ofBuf_toBuf (x : StableHlo.TRef sig T) (v : T.Contents Val) : x.ofBuf (x.toBuf v) = v := by
  obtain ⟨ref, ty_eq, od, us⟩ := x
  subst ty_eq
  rfl

/-- Back and to the buffer's type. -/
theorem toBuf_ofBuf (x : StableHlo.TRef sig T) (v : x.ref.ty.Contents Val) : x.toBuf (x.ofBuf v) = v := by
  obtain ⟨ref, ty_eq, od, us⟩ := x
  subst ty_eq
  rfl

end Cert.Lib.TypedRef
-- ==== Proof.KernelIdeal.LinesRead.lean ====
/-
  What the 96 lines after the region compute, read a stretch at a time.

  Only five buffers pass from one stretch to the next: the 19 values gathered at each location and the label gathered
  at each location (first stretch), the log-softmax of the gathered values (second), the labels as a column (third),
  the log-probability picked at the label (fourth), and the negated mean (fifth). Each stretch's buffer is read back
  as a function of the contents the stretch started from (in the two stretches that are calls of outlined
  functions every intermediate value's transport to its buffer's type and back cancels), and the five functions compose to `loss`: the last buffer
  the lines write, as ONE function of the region's result array and of the four integer arguments.
-/
import proofs.«140789_j19963007992276_1_alg».proof.Proof.KernelIdeal.Lines
import proofs.«140789_j19963007992276_1_alg».proof.Proof.LibTypedRef
import Idealize.ShloMosaic.Lib.StableHlo.Run

noncomputable section

namespace Cert.KernelIdeal.Lines

open Cert.KernelIdeal Cert.KernelIdeal.Gen
open Idealize.ShloMosaic Idealize.ShloMosaic.TcCoe Idealize.SL.Sem Idealize.ShloMosaic.StableHlo

variable {F : FTy → Type} [FloatOps F]

/-! ## The five functions -/

/-- The 19 channel values of the array `P` at each of the 500000 locations (a2, a3, a4): image, row and column, a
    negative coordinate counted from the end. -/
def gathered (P : (⟨S4x19x1024x1024, .f32⟩ : BufTy).Contents (Elt F)) (a2 a3 a4 : (⟨S500000, .i32⟩ : BufTy).Contents (Elt F)) :
    (⟨S500000x19, .f32⟩ : BufTy).Contents (Elt F) :=
  Host.gather gather_S4x19x1024x1024_S500000x3_S500000x19_1_023_n_n_023_1_11911 P (concatenate S500000x3 1 [⟨S500000x1, (broadcastInDim S500000x1 ![0] bcast_S500000_S500000x1_0 (select (cmpi .slt a2 (broadcastInDim S500000 ![] bcast_S_S500000 (constantI S_ 32 0#32))) (addi a2 (broadcastInDim S500000 ![] bcast_S_S500000 (constantI S_ 32 4#32))) a2))⟩, ⟨S500000x1, (broadcastInDim S500000x1 ![0] bcast_S500000_S500000x1_0 (select (cmpi .slt a3 (broadcastInDim S500000 ![] bcast_S_S500000 (constantI S_ 32 0#32))) (addi a3 (broadcastInDim S500000 ![] bcast_S_S500000 (constantI S_ 32 1024#32))) a3))⟩, ⟨S500000x1, (broadcastInDim S500000x1 ![0] bcast_S500000_S500000x1_0 (select (cmpi .slt a4 (broadcastInDim S500000 ![] bcast_S_S500000 (constantI S_ 32 0#32))) (addi a4 (broadcastInDim S500000 ![] bcast_S_S500000 (constantI S_ 32 1024#32))) a4))⟩] concatenates_S500000x1_S500000x1_S500000x1_S500000x3_d1)

/-- The label `a1` holds at each location. -/
def labels (a1 : (⟨S4x1024x1024, .i32⟩ : BufTy).Contents (Elt F)) (a2 a3 a4 : (⟨S500000, .i32⟩ : BufTy).Contents (Elt F)) :
    (⟨S500000, .i32⟩ : BufTy).Contents (Elt F) :=
  Host.gather gather_S4x1024x1024_S500000x3_S500000_n_012_n_n_012_1_111 a1 (concatenate S500000x3 1 [⟨S500000x1, (broadcastInDim S500000x1 ![0] bcast_S500000_S500000x1_0 (select (cmpi .slt a2 (broadcastInDim S500000 ![] bcast_S_S500000 (constantI S_ 32 0#32))) (addi a2 (broadcastInDim S500000 ![] bcast_S_S500000 (constantI S_ 32 4#32))) a2))⟩, ⟨S500000x1, (broadcastInDim S500000x1 ![0] bcast_S500000_S500000x1_0 (select (cmpi .slt a3 (broadcastInDim S500000 ![] bcast_S_S500000 (constantI S_ 32 0#32))) (addi a3 (broadcastInDim S500000 ![] bcast_S_S500000 (constantI S_ 32 1024#32))) a3))⟩, ⟨S500000x1, (broadcastInDim S500000x1 ![0] bcast_S500000_S500000x1_0 (select (cmpi .slt a4 (broadcastInDim S500000 ![] bcast_S_S500000 (constantI S_ 32 0#32))) (addi a4 (broadcastInDim S500000 ![] bcast_S_S500000 (constantI S_ 32 1024#32))) a4))⟩] concatenates_S500000x1_S500000x1_S500000x1_S500000x3_d1)

/-- The log-softmax of the 19 gathered values at each location. -/
def logProbs (g : (⟨S500000x19, .f32⟩ : BufTy).Contents (Elt F)) : (⟨S500000x19, .f32⟩ : BufTy).Contents (Elt F) :=
  subf (subf g (broadcastInDim S500000x19 ![0, 1] bcast_S500000x1_S500000x19_0_1 (broadcastInDim S500000x1 ![0] bcast_S500000_S500000x1_0 (maximumf (broadcastInDim S500000 ![] bcast_S_S500000 (constant S_ .f32 0xFF800000#32)) (Host.reduce FloatOps.maximumf g (constant S_ .f32 0xFF800000#32) reducesTo_S500000x19_S500000_d1 h_S_))))) (broadcastInDim S500000x19 ![0, 1] bcast_S500000x1_S500000x19_0_1 (Host.log (broadcastInDim S500000x1 ![0] bcast_S500000_S500000x1_0 (Host.reduceAdd (Host.exp (subf g (broadcastInDim S500000x19 ![0, 1] bcast_S500000x1_S500000x19_0_1 (broadcastInDim S500000x1 ![0] bcast_S500000_S500000x1_0 (maximumf (broadcastInDim S500000 ![] bcast_S_S500000 (constant S_ .f32 0xFF800000#32)) (Host.reduce FloatOps.maximumf g (constant S_ .f32 0xFF800000#32) reducesTo_S500000x19_S500000_d1 h_S_)))))) (constant S_ .f32 0x00000000#32) reducesTo_S500000x19_S500000_d1 h_S_))))

/-- The labels as a column. -/
def labelCol (l : (⟨S500000, .i32⟩ : BufTy).Contents (Elt F)) : (⟨S500000x1, .i32⟩ : BufTy).Contents (Elt F) :=
  broadcastInDim S500000x1 ![0] bcast_S500000_S500000x1_0 l

/-- The log-probability at the label of each location (a label outside 0 … 18 reads the fill value). -/
def picked (lp : (⟨S500000x19, .f32⟩ : BufTy).Contents (Elt F)) (lc : (⟨S500000x1, .i32⟩ : BufTy).Contents (Elt F)) :
    (⟨S500000x1, .f32⟩ : BufTy).Contents (Elt F) :=
  select (Host.reduce IntOp.andi (andi (cmpi .sge (shapeCast _ (select (cmpi .slt lc (broadcastInDim S500000x1 ![] bcast_S_S500000x1 (constantI S_ 32 0#32))) (addi lc (broadcastInDim S500000x1 ![] bcast_S_S500000x1 (constantI S_ 32 19#32))) lc) shapeCasts_S500000x1_S500000x1x1) (broadcastInDim S500000x1x1 ![] bcast_S_S500000x1x1 (constantI S_ 32 0#32))) (cmpi .sle (shapeCast _ (select (cmpi .slt lc (broadcastInDim S500000x1 ![] bcast_S_S500000x1 (constantI S_ 32 0#32))) (addi lc (broadcastInDim S500000x1 ![] bcast_S_S500000x1 (constantI S_ 32 19#32))) lc) shapeCasts_S500000x1_S500000x1x1) (broadcastInDim S500000x1x1 ![0, 1, 2] bcast_S1x1x1_S500000x1x1_0_1_2 (broadcastInDim S1x1x1 ![2] bcast_S1_S1x1x1_2 (constantI S1 32 18#32))))) (constantI S_ 1 1#1) reducesTo_S500000x1x1_S500000x1_d2 h_S_) (Host.gather gather_S500000x19_S500000x1x1_S500000x1_n_1_0_0_1_2_11 lp (shapeCast _ (select (cmpi .slt lc (broadcastInDim S500000x1 ![] bcast_S_S500000x1 (constantI S_ 32 0#32))) (addi lc (broadcastInDim S500000x1 ![] bcast_S_S500000x1 (constantI S_ 32 19#32))) lc) shapeCasts_S500000x1_S500000x1x1)) (broadcastInDim S500000x1 ![] bcast_S_S500000x1 (constant S_ .f32 0x7FC00000#32))

/-- Minus the sum over the locations, divided by 500000. -/
def negMean (p : (⟨S500000x1, .f32⟩ : BufTy).Contents (Elt F)) : (⟨S_, .f32⟩ : BufTy).Contents (Elt F) :=
  Host.divf (Host.reduceAdd (Host.negf (shapeCast _ p shapeCasts_S500000x1_S500000)) (constant S_ .f32 0x00000000#32) reducesTo_S500000_S_d0 h_S_) (constant S_ .f32 0x48F42400#32)

/-- The mean over the 500000 locations of minus the log-softmax, at the gathered label, of the 19 values of `P`
    gathered at the location. -/
def loss (P : (⟨S4x19x1024x1024, .f32⟩ : BufTy).Contents (Elt F)) (a1 : (⟨S4x1024x1024, .i32⟩ : BufTy).Contents (Elt F))
    (a2 a3 a4 : (⟨S500000, .i32⟩ : BufTy).Contents (Elt F)) : (⟨S_, .f32⟩ : BufTy).Contents (Elt F) :=
  negMean (picked (logProbs (gathered P a2 a3 a4)) (labelCol (labels a1 a2 a3 a4)))

/-! ## Each stretch read back -/

set_option maxHeartbeats 4000000 in
theorem read_gathered (V : Valuation τ sig (Elt F)) :
    after (hostOps1 (F := F)) V (Proc.devRef .tc main_v20)
      = gathered (V (Proc.devRef .tc main_v0)) (V (Proc.devRef .tc main_arg2)) (V (Proc.devRef .tc main_arg3)) (V (Proc.devRef .tc main_arg4)) := by
  unfold hostOps1
  after_results_simp <;> rfl <;> (unfold gathered; rfl)

set_option maxHeartbeats 4000000 in
theorem read_labels (V : Valuation τ sig (Elt F)) :
    after (hostOps1 (F := F)) V (Proc.devRef .tc main_v40)
      = labels (V (Proc.devRef .tc main_arg1)) (V (Proc.devRef .tc main_arg2)) (V (Proc.devRef .tc main_arg3)) (V (Proc.devRef .tc main_arg4)) := by
  unfold hostOps1
  after_results_simp <;> rfl <;> (unfold labels; rfl)

set_option maxHeartbeats 4000000 in
theorem read_logProbs (V : Valuation τ sig (Elt F)) :
    after (hostOps1_1 (F := F)) V (Proc.devRef .tc main_v41) = logProbs (V (Proc.devRef .tc main_v20)) := by
  unfold hostOps1_1
  after_results_simp
  simp only [Cert.Lib.TypedRef.ofBuf_toBuf]
  unfold logProbs
  rfl

theorem labels_pass (V : Valuation τ sig (Elt F)) :
    after (hostOps1_1 (F := F)) V (Proc.devRef .tc main_v40) = V (Proc.devRef .tc main_v40) := by
  unfold hostOps1_1
  after_results_simp <;> rfl

theorem read_labelCol (V : Valuation τ sig (Elt F)) :
    after (hostOps1_2 (F := F)) V (Proc.devRef .tc main_v42) = labelCol (V (Proc.devRef .tc main_v40)) := by
  unfold hostOps1_2
  after_results_simp <;> rfl <;> (unfold labelCol; rfl)

theorem logProbs_pass (V : Valuation τ sig (Elt F)) :
    after (hostOps1_2 (F := F)) V (Proc.devRef .tc main_v41) = V (Proc.devRef .tc main_v41) := by
  unfold hostOps1_2
  after_results_simp <;> rfl

set_option maxRecDepth 1000000 in
set_option maxHeartbeats 4000000 in
theorem read_picked (V : Valuation τ sig (Elt F)) :
    after (hostOps1_3 (F := F)) V (Proc.devRef .tc main_v43)
      = picked (V (Proc.devRef .tc main_v41)) (V (Proc.devRef .tc main_v42)) := by
  unfold hostOps1_3
  after_results_simp
  simp only [Cert.Lib.TypedRef.ofBuf_toBuf]
  unfold picked
  rfl

theorem read_negMean (V : Valuation τ sig (Elt F)) :
    after (hostOps1_4 (F := F)) V (Proc.devRef .tc main_v47) = negMean (V (Proc.devRef .tc main_v43)) := by
  unfold hostOps1_4
  after_results_simp <;> rfl <;> (unfold negMean; rfl)

/-! ## All the lines -/

/-- After the 96 lines, from any contents `V`, the last buffer holds `loss` of what `V` held in the region's result
    array and in the four integer arguments. -/
theorem read (V : Valuation τ sig (Elt F)) :
    after (stretches (F := F)).flatten V (Proc.devRef .tc main_v47)
      = loss (V (Proc.devRef .tc main_v0)) (V (Proc.devRef .tc main_arg1)) (V (Proc.devRef .tc main_arg2))
          (V (Proc.devRef .tc main_arg3)) (V (Proc.devRef .tc main_arg4)) := by
  have e : (stretches (F := F)).flatten = hostOps1 ++ (hostOps1_1 ++ (hostOps1_2 ++ (hostOps1_3 ++ hostOps1_4))) := by
    simp only [stretches, List.flatten_cons, List.flatten_nil, List.append_nil]
  rw [e, after_append, after_append, after_append, after_append,
    read_negMean, read_picked, logProbs_pass, read_labelCol, read_logProbs, labels_pass, read_gathered, read_labels]
  rfl

end Cert.KernelIdeal.Lines

end
-- ==== Proof.Softmax.lean ====
/-
  The softmax over the channel axis of an array of shape [4, 19, 1024, 1024], at the extended reals.

  For 19 extended reals v the softmax at channel c is exp (v c - M) / S, where M is the supremum of the 19
  values and S the sum over the channels k of exp (v k - M).  The array function G applies this, at the index
  (b, c, h, w), to the 19 values x (b, k, h, w): its value there depends on no other entry of x.
-/
import Idealize.ShloMosaic.PureOps.Ideal
import Idealize.ShloMosaic.PureOps.Ideal.Laws
import Idealize.ShloMosaic.Lib.ValueIdx

noncomputable section

open scoped BigOperators

namespace Cert.Softmax

open Idealize.ShloMosaic Idealize.ShloMosaic.ValueIdx

/-- The maximum of 19 extended reals: their supremum (of which minus infinity is the neutral element). -/
def chanMax (v : Fin 19 → EReal) : EReal := Finset.univ.sup v

/-- The softmax of 19 extended reals at channel `c`: the exponential of the distance to the maximum, divided by
    the sum of those exponentials over the 19 channels. -/
def soft (v : Fin 19 → EReal) (c : Fin 19) : EReal :=
  Ideal.div (Ideal.exp (v c - chanMax v)) (∑ k : Fin 19, Ideal.exp (v k - chanMax v))

/-- The channel softmax of an array `x` of shape [4, 19, 1024, 1024]: at (b, c, h, w) the softmax at channel `c`
    of the 19 values x (b, k, h, w). -/
def G (x : (⟨4, ![4, 19, 1024, 1024]⟩ : Shape).Idx → EReal) : (⟨4, ![4, 19, 1024, 1024]⟩ : Shape).Idx → EReal :=
  fun i => soft (fun k : Fin 19 => x (ix4 (i 0) k (i 2) (i 3))) (i 1)

/-- `G` at an index given by its coordinates. -/
theorem G_ix4 (x : (⟨4, ![4, 19, 1024, 1024]⟩ : Shape).Idx → EReal) (b : Fin 4) (c : Fin 19) (h w : Fin 1024) :
    G x (ix4 b c h w) = soft (fun k : Fin 19 => x (ix4 b k h w)) c := rfl

/-- The softmax written out: the form both programs compute. -/
theorem soft_eq (v : Fin 19 → EReal) (c : Fin 19) :
    soft v c = Ideal.div (Ideal.exp (v c - Finset.univ.sup v)) (∑ k : Fin 19, Ideal.exp (v k - Finset.univ.sup v)) := rfl

/-- A value that is, at channel `c`, the quotient of exp (v c - m) by a sum s of the exponentials exp (v k - m),
    with m the supremum of v, is the softmax of v at `c`. -/
theorem eq_soft (v : Fin 19 → EReal) (c : Fin 19) (m s : EReal) (hm : m = Finset.univ.sup v)
    (hs : s = ∑ k : Fin 19, Ideal.exp (v k - m)) :
    Ideal.div (Ideal.exp (v c - m)) s = soft v c := by
  subst hm; subst hs; rfl

end Cert.Softmax

end
-- ==== Proof.LibMaxReduce.lean ====
/-
  The maximum-reduction of an array along one axis, read at the extended reals.

  A reduction by `max` that starts from the bottom element is a supremum: the order of the fold is
  immaterial and the starting value is absorbed.  The first lemma says so for any finite set in any linear
  order with a bottom element; the second reads the f32 word `0xFF800000` as that bottom element; the third
  applies both to a one-operand host reduction by `maximumf` over ONE axis, giving the supremum over that
  axis's coordinates of the operand at the result index with the coordinate inserted.
-/
import Idealize.ShloMosaic.PureOps.Ideal.Laws

noncomputable section

namespace Cert.LibMaxReduce

open Idealize.ShloMosaic

/-- In a linear order with a bottom element, folding `max` from `⊥` over a finite set is the supremum over
    the set: `⊥` is the identity of `max`, and `max` is the join. -/
theorem fold_max_bot_eq_sup {ι α : Type*} [LinearOrder α] [OrderBot α] (s : Finset ι) (f : ι → α) :
    s.fold max ⊥ f = s.sup f := by
  induction s using Finset.cons_induction with
  | empty => rfl
  | cons a s ha ih => rw [Finset.fold_cons, Finset.sup_cons, ih]

/-- The f32 word `0xFF800000` (sign set, exponent all ones, significand zero) denotes `-∞`, the bottom
    element of the extended reals. -/
theorem ofBits_neg_inf_f32 : Ideal.ofBits .f32 0xFF800000#32 = ⊥ := by
  simp [Ideal.ofBits, Ideal.ieee]

/-- At the extended reals the fold of `maximumf` from `⊥` over a finite set is the supremum over the set. -/
theorem fold_maximumf_bot_eq_sup {ι : Type*} {φ : FTy} (s : Finset ι) (f : ι → Ideal φ) :
    s.fold (FloatOps.maximumf (F := Ideal) (φ := φ)) ⊥ f = s.sup f := by
  induction s using Finset.cons_induction with
  | empty => rfl
  | cons a s ha ih => rw [Finset.fold_cons, Finset.sup_cons, ih]; rfl

/-- A one-operand host reduction by `maximumf` over ONE axis `a`, whose initial value is `⊥`, is at each
    result index `j` the supremum, over the coordinates `k` of axis `a`, of the operand at `j` with `k`
    inserted on axis `a`. -/
theorem hostReduce_maximumf_single {s t u : Shape} {a : Fin s.rank} {φ : FTy} (x : FVec Ideal s φ)
    (init : FVec Ideal u φ) (h' : s.ReducesTo [a] t) (h : s.Reduces [a] t) (hu : 0 < u.numel)
    (hinit : init (Shape.Idx.first hu) = ⊥) (j : t.Idx) :
    Host.reduce FloatOps.maximumf x init h' hu j
      = (Finset.univ : Finset (Fin (s.size a))).sup fun k => x (h.lift j k) := by
  rw [Host.reduce_eq_fold_single FloatOps.maximumf x init h' h hu j, hinit, fold_maximumf_bot_eq_sup]
  rfl

end Cert.LibMaxReduce

end
-- ==== Proof.BlockSoftmax.lean ====
/-
  The kernel's block computation read at an index.

  On a block x0 of shape [1, 19, 64, 1024] the kernel takes the maximum over the channel axis, puts it back over the
  19 channels, exponentiates the difference, sums that over the channel axis, puts the sum back over the channels and
  divides.  At the index (0, c, r, w) the result is therefore the softmax, at channel c, of the 19 values
  x0 (0, k, r, w): it depends on no other entry of the block.  When those 19 values are the values X (b, k, R, w) of
  an array X of shape [4, 19, 1024, 1024], the result is the channel softmax of X at (b, c, R, w).
-/
import proofs.«140789_j19963007992276_1_alg».proof.Proof.Gen.KernelIdeal.Skeleton
import proofs.«140789_j19963007992276_1_alg».proof.Proof.Softmax
import proofs.«140789_j19963007992276_1_alg».proof.Proof.LibMaxReduce
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Idealize.ShloMosaic Idealize.ShloMosaic.ValueIdx

/-! ## The non-pointwise operations at an index -/

/-- The reduced index (0, r, w) with the channel k inserted on axis 1 is (0, k, r, w). -/
theorem lift_ix3 (h : S1x19x64x1024.Reduces [1] S1x64x1024) (r : Fin 64) (w : Fin 1024) (k : Fin 19) :
    h.lift (ix3 (0 : Fin 1) r w) k = ix4 (0 : Fin 1) k r w :=
  funext fun a => Fin.ext (by match a with | ⟨0, _⟩ => rfl | ⟨1, _⟩ => rfl | ⟨2, _⟩ => rfl | ⟨3, _⟩ => rfl)

/-- The maximum over the channel axis, started from minus infinity, at (0, r, w): the supremum of the 19 channel values. -/
theorem reduceMax_apply (v : FVec Ideal S1x19x64x1024 .f32) (h : S1x19x64x1024.Reduces [1] S1x64x1024)
    (hφ : FKind.Formats .f32) (hacc : (0xFF800000#32 : BitVec 32) = FKind.maximumf.neutral .f32 hφ) (r : Fin 64) (w : Fin 1024) :
    multiReduction (F := Ideal) .maximumf [1] S1x64x1024 v 0xFF800000#32 h hφ hacc (ix3 (0 : Fin 1) r w)
      = Finset.univ.sup fun k : Fin 19 => v (ix4 (0 : Fin 1) k r w) := by
  have e : (Finset.univ : Finset (Fin 19)).fold max (Ideal.ofBits .f32 0xFF800000#32) (fun k : Fin 19 => v (ix4 (0 : Fin 1) k r w))
      = Finset.univ.sup fun k : Fin 19 => v (ix4 (0 : Fin 1) k r w) := by
    rw [LibMaxReduce.ofBits_neg_inf_f32]; exact LibMaxReduce.fold_max_bot_eq_sup _ _
  refine (Ideal.multiReduction_maximumf_single v _ h hφ hacc _).trans (Eq.trans ?_ e)
  exact congrArg (fun f : Fin 19 → EReal => (Finset.univ : Finset (Fin 19)).fold max (Ideal.ofBits .f32 0xFF800000#32) f)
    (funext fun k => congrArg v (lift_ix3 h r w k))

/-- The sum over the channel axis at (0, r, w): the sum of the 19 channel values. -/
theorem reduceAdd_apply (v : FVec Ideal S1x19x64x1024 .f32) (h : S1x19x64x1024.Reduces [1] S1x64x1024)
    (hφ : FKind.Formats .f32) (hacc : (0x00000000#32 : BitVec 32) = FKind.add.neutral .f32 hφ) (r : Fin 64) (w : Fin 1024) :
    multiReduction (F := Ideal) .add [1] S1x64x1024 v 0x00000000#32 h hφ hacc (ix3 (0 : Fin 1) r w)
      = ∑ k : Fin 19, v (ix4 (0 : Fin 1) k r w) := by
  refine (Ideal.multiReduction_add_single v _ h hφ hacc _).trans ?_
  exact Finset.sum_congr rfl fun k _ => congrArg v (lift_ix3 h r w k)

/-- A [1, 64, 1024] vector viewed as [1, 1, 64, 1024] reads (0, r, w) at (0, 0, r, w). -/
theorem addUnit_apply {α : Type} (v : S1x64x1024.Idx → α) (h : S1x64x1024.ShapeCasts S1x1x64x1024) (r : Fin 64) (w : Fin 1024) :
    shapeCast S1x1x64x1024 v h (ix4 (0 : Fin 1) (0 : Fin 1) r w) = v (ix3 (0 : Fin 1) r w) := by
  refine (shapeCast_addUnit_apply (n := 3) ![1, 64, 1024] v h _).trans ?_
  refine congrArg v (funext fun a => ?_)
  match a with | ⟨0, _⟩ => rfl | ⟨1, _⟩ => rfl | ⟨2, _⟩ => rfl

/-- A [1, 1, 64, 1024] vector broadcast over the 19 channels reads (0, 0, r, w) at (0, c, r, w). -/
theorem overChannels_apply {α : Type} (v : S1x1x64x1024.Idx → α) (h : S1x1x64x1024.Broadcasts S1x19x64x1024)
    (c : Fin 19) (r : Fin 64) (w : Fin 1024) :
    broadcastTo S1x19x64x1024 v h (ix4 (0 : Fin 1) c r w) = v (ix4 (0 : Fin 1) (0 : Fin 1) r w) := by
  refine broadcastTo_apply v h _ _ fun a => ?_
  match a with | ⟨0, _⟩ => rfl | ⟨1, _⟩ => rfl | ⟨2, _⟩ => rfl | ⟨3, _⟩ => rfl

/-! ## The stages of the block computation -/

/-- The block's channel maximum, put back over the 19 channels. -/
def bmax (x0 : FVec Ideal S1x19x64x1024 .f32) : FVec Ideal S1x19x64x1024 .f32 :=
  broadcastTo S1x19x64x1024 (shapeCast S1x1x64x1024 (multiReduction (F := Ideal) .maximumf [1] S1x64x1024 x0 0xFF800000#32
    Gen.reduces_S1x19x64x1024_S1x64x1024 (.inl rfl) rfl) Gen.shapeCasts_S1x64x1024_S1x1x64x1024) Gen.broadcasts_S1x1x64x1024_S1x19x64x1024

/-- The exponential of the block's distance to its channel maximum. -/
def bexp (x0 : FVec Ideal S1x19x64x1024 .f32) : FVec Ideal S1x19x64x1024 .f32 := exp (subf x0 (bmax x0))

/-- The sum of those exponentials over the channels, put back over the 19 channels. -/
def bsum (x0 : FVec Ideal S1x19x64x1024 .f32) : FVec Ideal S1x19x64x1024 .f32 :=
  broadcastTo S1x19x64x1024 (shapeCast S1x1x64x1024 (multiReduction (F := Ideal) .add [1] S1x64x1024 (bexp x0) 0x00000000#32
    Gen.reduces_S1x19x64x1024_S1x64x1024 (.inl rfl) rfl) Gen.shapeCasts_S1x64x1024_S1x1x64x1024) Gen.broadcasts_S1x1x64x1024_S1x19x64x1024

/-- The kernel's stored value is the quotient of the last two. -/
theorem pay_eq (x0 : Vec Ideal S1x19x64x1024 .f32) : Gen.k0_pay1 (F := Ideal) x0 = divf (bexp x0) (bsum x0) := rfl

theorem bmax_apply (x0 : FVec Ideal S1x19x64x1024 .f32) (c : Fin 19) (r : Fin 64) (w : Fin 1024) :
    bmax x0 (ix4 (0 : Fin 1) c r w) = Finset.univ.sup fun k : Fin 19 => x0 (ix4 (0 : Fin 1) k r w) :=
  (overChannels_apply _ _ c r w).trans ((addUnit_apply _ _ r w).trans (reduceMax_apply x0 _ _ _ r w))

theorem bexp_apply (x0 : FVec Ideal S1x19x64x1024 .f32) (c : Fin 19) (r : Fin 64) (w : Fin 1024) :
    bexp x0 (ix4 (0 : Fin 1) c r w)
      = Ideal.exp (x0 (ix4 (0 : Fin 1) c r w) - Finset.univ.sup fun k : Fin 19 => x0 (ix4 (0 : Fin 1) k r w)) :=
  congrArg (fun m => Ideal.exp (x0 (ix4 (0 : Fin 1) c r w) - m)) (bmax_apply x0 c r w)

theorem bsum_apply (x0 : FVec Ideal S1x19x64x1024 .f32) (c : Fin 19) (r : Fin 64) (w : Fin 1024) :
    bsum x0 (ix4 (0 : Fin 1) c r w)
      = ∑ j : Fin 19, Ideal.exp (x0 (ix4 (0 : Fin 1) j r w) - Finset.univ.sup fun k : Fin 19 => x0 (ix4 (0 : Fin 1) k r w)) :=
  (overChannels_apply _ _ c r w).trans ((addUnit_apply _ _ r w).trans ((reduceAdd_apply (bexp x0) _ _ _ r w).trans
    (Finset.sum_congr rfl fun j _ => bexp_apply x0 j r w)))

/-! ## The block's result -/

/-- At (0, c, r, w) the kernel's stored value is the softmax at channel c of the 19 values x0 (0, k, r, w). -/
theorem payload_soft (x0 : Vec Ideal S1x19x64x1024 .f32) (c : Fin 19) (r : Fin 64) (w : Fin 1024) :
    Gen.k0_pay1 (F := Ideal) x0 (ix4 (0 : Fin 1) c r w) = Cert.Softmax.soft (fun k : Fin 19 => x0 (ix4 (0 : Fin 1) k r w)) c := by
  rw [pay_eq]
  show Ideal.div (bexp x0 (ix4 (0 : Fin 1) c r w)) (bsum x0 (ix4 (0 : Fin 1) c r w)) = _
  rw [bexp_apply, bsum_apply]
  rfl

/-- When the block's 19 values at (0, ·, r, w) are the array's at (b, ·, R, w), the kernel's stored value at
    (0, c, r, w) is the array's channel softmax at (b, c, R, w). -/
theorem payload_eq (X : (⟨4, ![4, 19, 1024, 1024]⟩ : Shape).Idx → EReal) (x0 : Vec Ideal S1x19x64x1024 .f32)
    (b : Fin 4) (R : Fin 1024) (r : Fin 64) (w : Fin 1024)
    (hx : ∀ k : Fin 19, x0 (ix4 (0 : Fin 1) k r w) = X (ix4 b k R w)) (ch : Fin 19) :
    Gen.k0_pay1 (F := Ideal) x0 (ix4 (0 : Fin 1) ch r w) = Cert.Softmax.G X (ix4 b ch R w) := by
  rw [payload_soft, Cert.Softmax.G_ix4]
  exact congrArg (fun v => Cert.Softmax.soft v ch) (funext hx)

end Cert.KernelIdeal.BlockValue

end
-- ==== Proof.KernelIdeal.Result.lean ====
/-
  The array the softmax region leaves, and with it the program's result, at the ideal instance.

  Point (b, h) of the grid writes back rows 64·h … 64·h + 63 of image b, all channels and columns; its input block is
  the same rows of the first argument. The value the body stores at (channel c, row r, column w) of the block depends
  only on the 19 values of the input block at (·, r, w), which are the first argument's at (b, ·, 64·h + r, w): it is
  the channel softmax of the first argument at (b, c, 64·h + r, w). The 4 × 16 blocks written back tile the array, so
  the array ends as the channel softmax of the first argument, whole; and the program's result is the later lines'
  function of that array and of the four integer arguments.
-/
import proofs.«140789_j19963007992276_1_alg».proof.Proof.KernelIdeal.Region
import proofs.«140789_j19963007992276_1_alg».proof.Proof.KernelIdeal.LinesRead
import proofs.«140789_j19963007992276_1_alg».proof.Proof.Softmax
import proofs.«140789_j19963007992276_1_alg».proof.Proof.BlockSoftmax
import Idealize.ShloMosaic.Lib.Pipeline.Value
import Idealize.ShloMosaic.Lib.ValueIdx

set_option maxRecDepth 16384

noncomputable section

namespace Cert.KernelIdeal.Result

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem origin : (![0, 0, 0, 0] : Fin 4 → Nat) = fun _ => 0 := funext fun a => by fin_cases a <;> rfl

/-- The two windows' block indices, decided over the grid: the same image and the same band of rows, every channel
    and every column. -/
theorem index_facts : ∀ t : Fin cfg0.N,
    win0_0.index t (0 : Fin 4) = win0_1.index t (0 : Fin 4) ∧ win0_0.index t (1 : Fin 4) = 0 ∧ win0_1.index t (1 : Fin 4) = 0
    ∧ win0_0.index t (2 : Fin 4) = win0_1.index t (2 : Fin 4) ∧ win0_0.index t (3 : Fin 4) = 0 ∧ win0_1.index t (3 : Fin 4) = 0 :=
  (by decide +kernel : ∀ t : Fin grid0.N, _)

/-- Every image and every band of 64 rows is some point's. -/
theorem index_onto : ∀ (q0 : Fin 4) (q2 : Fin 16), ∃ t : Fin cfg0.N, win0_1.index t = ![q0.val, 0, q2.val, 0] :=
  (by decide +kernel : ∀ (q0 : Fin 4) (q2 : Fin 16), ∃ t : Fin grid0.N, win0_1.index t = ![q0.val, 0, q2.val, 0])

/-- What point `t` writes back is block `t` of the channel softmax of the first argument. -/
theorem written_back (c : Dev nD) (t : Fin cfg0.N) :
    (Region.dats m 0 c).flushed 1 t
      = ((cfg0.win 1).blk t).view.read (Elt Ideal) (Cert.Softmax.G (m ((c : Thread nD τ).loc main_arg0))) := by
  show (cfg0.win 1).cut (grid0.coords t) ((Region.dats m 0 c).after 1 t) = _
  rw [Region.after_out]
  unfold Region.stored
  rw [View.canon_unit_zero origin]
  simp only [View.ld_unit_zero (S := S1x19x64x1024) origin]
  obtain ⟨e0, e1, e2, e3, e4, e5⟩ := index_facts t
  funext j
  obtain ⟨z, ch, r, w, rfl⟩ : ∃ (z : Fin 1) (ch : Fin 19) (r : Fin 64) (w : Fin 1024), j = ix4 z ch r w :=
    ⟨j 0, j 1, j 2, j 3, eq_ix4 j⟩
  obtain rfl : z = 0 := Subsingleton.elim _ _
  show Gen.k0_pay1 (F := Ideal) (Region.blockAt m c 0 t) (ix4 (0 : Fin 1) ch r w)
      = Cert.Softmax.G (m ((c : Thread nD τ).loc main_arg0)) (((cfg0.win 1).blk t).view.emb (ix4 (0 : Fin 1) ch r w))
  have hi : ((cfg0.win 1).blk t).view.emb (ix4 (0 : Fin 1) ch r w)
      = ix4 (((cfg0.win 1).blk t).view.emb (ix4 (0 : Fin 1) ch r w) 0) ch (((cfg0.win 1).blk t).view.emb (ix4 (0 : Fin 1) ch r w) 2) w := by
    funext a; apply Fin.ext
    match a with
    | ⟨0, _⟩ => rfl
    | ⟨1, _⟩ => show win0_1.index t (1 : Fin 4) * 19 + 1 * ch.val = ch.val; omega
    | ⟨2, _⟩ => rfl
    | ⟨3, _⟩ => show win0_1.index t (3 : Fin 4) * 1024 + 1 * w.val = w.val; omega
  rw [hi]
  refine Cert.KernelIdeal.BlockValue.payload_eq (m ((c : Thread nD τ).loc main_arg0)) (Region.blockAt m c 0 t) _ _ r w (fun k => ?_) ch
  show m ((c : Thread nD τ).loc main_arg0) (((cfg0.win 0).blk t).view.emb (ix4 (0 : Fin 1) k r w)) = _
  refine congrArg (m ((c : Thread nD τ).loc main_arg0)) ?_
  funext a; apply Fin.ext
  match a with
  | ⟨0, _⟩ => show win0_0.index t (0 : Fin 4) * 1 + 1 * 0 = win0_1.index t (0 : Fin 4) * 1 + 1 * 0; omega
  | ⟨1, _⟩ => show win0_0.index t (1 : Fin 4) * 19 + 1 * k.val = k.val; omega
  | ⟨2, _⟩ => show win0_0.index t (2 : Fin 4) * 64 + 1 * r.val = win0_1.index t (2 : Fin 4) * 64 + 1 * r.val; omega
  | ⟨3, _⟩ => show win0_0.index t (3 : Fin 4) * 1024 + 1 * w.val = w.val; omega

/-- An index of the array is in point `t`'s block iff each coordinate is in the block's range on its axis. -/
theorem mem_block (t : Fin cfg0.N) (i : S4x19x1024x1024.Idx) :
    i ∈ ((cfg0.win 1).blk t).view.set ↔ ∀ a : Fin 4, win0_1.index t a * S1x19x64x1024.size a ≤ (i a).val
      ∧ (i a).val < win0_1.index t a * S1x19x64x1024.size a + S1x19x64x1024.size a := by
  show i ∈ ((View.whole main_v0).slice (win0_1.rect t)).set ↔ _
  rw [View.set_slice_whole, Rect.mem_set_unit]
  exact Iff.rfl

/-- Every index of the array is in the block of the point of its image and its band of rows. -/
theorem covered (i : S4x19x1024x1024.Idx) :
    ∃ t : Fin cfg0.N, (cfg0.win 1).flush t = true ∧ i ∈ ((cfg0.win 1).blk t).view.set := by
  have h0 : (i 0).val < 4 := (i 0).isLt
  have h1 : (i 1).val < 19 := (i 1).isLt
  have h2 : (i 2).val < 1024 := (i 2).isLt
  have h3 : (i 3).val < 1024 := (i 3).isLt
  obtain ⟨t, ht⟩ := index_onto ⟨(i 0).val, h0⟩ ⟨(i 2).val / 64, by omega⟩
  have q0 : win0_1.index t (0 : Fin 4) = (i 0).val := congrFun ht 0
  have q1 : win0_1.index t (1 : Fin 4) = 0 := congrFun ht 1
  have q2 : win0_1.index t (2 : Fin 4) = (i 2).val / 64 := congrFun ht 2
  have q3 : win0_1.index t (3 : Fin 4) = 0 := congrFun ht 3
  refine ⟨t, flush0_1 t, ?_⟩
  rw [mem_block]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 19 ≤ (i 1).val ∧ (i 1).val < win0_1.index t (1 : Fin 4) * 19 + 19; omega
  | ⟨2, _⟩ => show win0_1.index t (2 : Fin 4) * 64 ≤ (i 2).val ∧ (i 2).val < win0_1.index t (2 : Fin 4) * 64 + 64; omega
  | ⟨3, _⟩ => show win0_1.index t (3 : Fin 4) * 1024 ≤ (i 3).val ∧ (i 3).val < win0_1.index t (3 : Fin 4) * 1024 + 1024; omega

/-- The array the region leaves is the channel softmax of the first argument. -/
theorem array_eq (c : Dev nD) :
    (Region.dats m 0 c).arrAt 1 cfg0.N = Cert.Softmax.G (m ((c : Thread nD τ).loc main_arg0)) :=
  (Region.dats m 0 c).arrAt_eq_of_cover 1 _ (fun t _ => written_back m c t) covered

/-! ## The result -/

/-- After the later lines the last buffer holds their function of the softmax array and of the integer arguments. -/
theorem result_eq (c : Dev nD) :
    Region.atEnd m c main_v47
      = Lines.loss (Cert.Softmax.G (m ((c : Thread nD τ).loc main_arg0))) (m ((c : Thread nD τ).loc main_arg1))
          (m ((c : Thread nD τ).loc main_arg2)) (m ((c : Thread nD τ).loc main_arg3)) (m ((c : Thread nD τ).loc main_arg4)) := by
  show StableHlo.after (Lines.stretches (F := Ideal)).flatten _ (Proc.devRef .tc main_v47) = _
  rw [Lines.read]
  have e0 : Pipeline.withArrays spec0 c (Region.entry m c) (fun w => (Region.dats m 0 c).arrAt w cfg0.N) (Proc.devRef .tc main_v0)
      = Cert.Softmax.G (m ((c : Thread nD τ).loc main_arg0)) :=
    (Pipeline.withArrays_arr spec0 launch0.win.arr_inj c _ _ 1).trans (array_eq m c)
  have e1 : Pipeline.withArrays spec0 c (Region.entry m c) (fun w => (Region.dats m 0 c).arrAt w cfg0.N) (Proc.devRef .tc main_arg1)
      = m ((c : Thread nD τ).loc main_arg1) := Pipeline.withArrays_of_ne _ c (Region.entry m c) _ main_arg1 (by decide)
  have e2 : Pipeline.withArrays spec0 c (Region.entry m c) (fun w => (Region.dats m 0 c).arrAt w cfg0.N) (Proc.devRef .tc main_arg2)
      = m ((c : Thread nD τ).loc main_arg2) := Pipeline.withArrays_of_ne _ c (Region.entry m c) _ main_arg2 (by decide)
  have e3 : Pipeline.withArrays spec0 c (Region.entry m c) (fun w => (Region.dats m 0 c).arrAt w cfg0.N) (Proc.devRef .tc main_arg3)
      = m ((c : Thread nD τ).loc main_arg3) := Pipeline.withArrays_of_ne _ c (Region.entry m c) _ main_arg3 (by decide)
  have e4 : Pipeline.withArrays spec0 c (Region.entry m c) (fun w => (Region.dats m 0 c).arrAt w cfg0.N) (Proc.devRef .tc main_arg4)
      = m ((c : Thread nD τ).loc main_arg4) := Pipeline.withArrays_of_ne _ c (Region.entry m c) _ main_arg4 (by decide)
  rw [e0, e1, e2, e3, e4]

/-- Every weakly fair execution of the idealized kernel terminates with its result at the later lines' function of
    the channel softmax of the first argument and of the integer arguments, the arguments unchanged. -/
theorem run : θ_run defs (onTc (τ := τ) (main (F := Ideal))) ⟨m, fun _ => 0, ρ⟩ (fun r => ∀ c : Dev nD,
      r.2.mem ((c.tc : Thread nD τ).loc main_v47)
        = Lines.loss (Cert.Softmax.G (m ((c : Thread nD τ).loc main_arg0))) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v47 (Pipeline.mem_restRefs_of main_v47 (by decide) (by decide))).trans (result_eq m c),
     ((h c).1 0).trans (((Region.dats m 0 c).arrAt_in 0 rfl _).trans (Region.arrays_eq m c 0)),
     ((h c).2 main_arg1 (Pipeline.mem_restRefs_of main_arg1 (by decide) (by decide))).trans (Region.atEnd_kept m c Lines.arg1_not_written (by decide)),
     ((h c).2 main_arg2 (Pipeline.mem_restRefs_of main_arg2 (by decide) (by decide))).trans (Region.atEnd_kept m c Lines.arg2_not_written (by decide)),
     ((h c).2 main_arg3 (Pipeline.mem_restRefs_of main_arg3 (by decide) (by decide))).trans (Region.atEnd_kept m c Lines.arg3_not_written (by decide)),
     ((h c).2 main_arg4 (Pipeline.mem_restRefs_of main_arg4 (by decide) (by decide))).trans (Region.atEnd_kept m c Lines.arg4_not_written (by decide))⟩)
    (Region.run_main m ρ)

end Cert.KernelIdeal.Result

end
-- ==== Proof.Reference.lean ====
/-
  The reference program at the ideal instance, cut in two: the channel softmax of the first argument over the whole
  array, and everything that follows it (the gathers at the three index arrays, the second log-softmax, the label
  gather, the negated mean): the kernel's program ends with the same lines.
-/
import proofs.«140789_j19963007992276_1_alg».proof.Defs
import proofs.«140789_j19963007992276_1_alg».proof.Proof.ReferenceRunPatched

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The reference's softmax over the channel axis as it is printed: the maximum over the 19 channels (once more
    against minus infinity), the exponential of the difference, its sum over the channels, the quotient. -/
def softmaxTerm (x : (⟨S4x19x1024x1024, .f32⟩ : BufTy).Contents (Elt F)) : (⟨S4x19x1024x1024, .f32⟩ : BufTy).Contents (Elt F) :=
  (Host.divf (Host.exp (subf x (broadcastInDim S4x19x1024x1024 ![0, 1, 2, 3] bcast_S4x1x1024x1024_S4x19x1024x1024_0_1_2_3 (broadcastInDim S4x1x1024x1024 ![0, 2, 3] bcast_S4x1024x1024_S4x1x1024x1024_0_2_3 (maximumf (broadcastInDim S4x1024x1024 ![] bcast_S_S4x1024x1024 (constant S_ .f32 0xFF800000#32)) (Host.reduce FloatOps.maximumf x (constant S_ .f32 0xFF800000#32) reducesTo_S4x19x1024x1024_S4x1024x1024_d1 h_S_)))))) (broadcastInDim S4x19x1024x1024 ![0, 1, 2, 3] bcast_S4x1x1024x1024_S4x19x1024x1024_0_1_2_3 (broadcastInDim S4x1x1024x1024 ![0, 2, 3] bcast_S4x1024x1024_S4x1x1024x1024_0_2_3 (Host.reduceAdd (Host.exp (subf x (broadcastInDim S4x19x1024x1024 ![0, 1, 2, 3] bcast_S4x1x1024x1024_S4x19x1024x1024_0_1_2_3 (broadcastInDim S4x1x1024x1024 ![0, 2, 3] bcast_S4x1024x1024_S4x1x1024x1024_0_2_3 (maximumf (broadcastInDim S4x1024x1024 ![] bcast_S_S4x1024x1024 (constant S_ .f32 0xFF800000#32)) (Host.reduce FloatOps.maximumf x (constant S_ .f32 0xFF800000#32) reducesTo_S4x19x1024x1024_S4x1024x1024_d1 h_S_)))))) (constant S_ .f32 0x00000000#32) reducesTo_S4x19x1024x1024_S4x1024x1024_d1 h_S_))))

end Cert.ReferenceIdeal.RefValue

end
-- ==== Proof.ReferenceRun.lean ====
/-
  The reference's run, read a stretch at a time.

  The reference is a straight line of 110 host operations: the softmax of the first argument over the channel axis (14
  operations), then the same five stretches the kernel's program ends with — the gathers at the three index arrays, the
  second log-softmax, the labels as a column, the log-probability picked at the label, the negated mean.  Only a few
  buffers pass from one stretch to the next, so each stretch's buffer is read back as a function of the contents the
  stretch started from and the functions are composed: the result is `loss` of the softmax of the first argument and of
  the four integer arguments, and no operation writes an argument.
-/
import proofs.«140789_j19963007992276_1_alg».proof.Proof.Reference
import proofs.«140789_j19963007992276_1_alg».proof.Proof.KernelIdeal.LinesRead
import proofs.«140789_j19963007992276_1_alg».proof.Proof.LibTypedRef
import Idealize.ShloMosaic.Lib.StableHlo.Run

noncomputable section

namespace Cert.ReferenceIdeal.RefValue

open Cert.ReferenceIdeal Cert.ReferenceIdeal.Gen
open Idealize.ShloMosaic Idealize.ShloMosaic.TcCoe Idealize.SL.Sem Idealize.ShloMosaic.StableHlo

variable {F : FTy → Type} [FloatOps F]

/-! ## The program cut into six stretches -/

/-- The softmax of the first argument: 14 operations, ending in the softmax array. -/
abbrev s0 : List (HloOp τ sig (Elt F)) := (ValueP.ops (F := F)).take 14
/-- The two gathers' index arithmetic and the gathers: 52 operations, ending in the gathered values and the labels. -/
abbrev s1 : List (HloOp τ sig (Elt F)) := ((ValueP.ops (F := F)).drop 14).take 52
/-- The log-softmax of the gathered values: 15 operations. -/
abbrev s2 : List (HloOp τ sig (Elt F)) := ((ValueP.ops (F := F)).drop 66).take 15
/-- The labels as a column: one operation. -/
abbrev s3 : List (HloOp τ sig (Elt F)) := ((ValueP.ops (F := F)).drop 81).take 1
/-- The log-probability picked at the label: 22 operations. -/
abbrev s4 : List (HloOp τ sig (Elt F)) := ((ValueP.ops (F := F)).drop 82).take 22
/-- The negated mean: the last 6 operations. -/
abbrev s5 : List (HloOp τ sig (Elt F)) := (ValueP.ops (F := F)).drop 104

/-- The program is the six stretches in order. -/
theorem ops_eq : ValueP.ops (F := F) = s0 ++ (s1 ++ (s2 ++ (s3 ++ (s4 ++ s5)))) := rfl

/-! ## Each stretch read back

Each stretch's buffer as a function of the contents the stretch started from; a buffer a stretch does not write keeps
its contents through it. The functions of the last five stretches are the ones the kernel's program ends with. -/

set_option maxHeartbeats 4000000 in
/-- The first stretch leaves the printed softmax of the first argument. -/
theorem read_softmax (V : Valuation τ sig (Elt F)) :
    after (s0 (F := F)) V (Proc.devRef .tc main_v10) = softmaxTerm (V (Proc.devRef .tc main_arg0)) := by
  simp only [s0, ValueP.ops, List.take_succ_cons, List.take_zero]
  after_results_simp <;> rfl

theorem s0_arg1 (V : Valuation τ sig (Elt F)) :
    after (s0 (F := F)) V (Proc.devRef .tc main_arg1) = V (Proc.devRef .tc main_arg1) := by
  simp only [s0, ValueP.ops, List.take_succ_cons, List.take_zero]
  after_results_simp <;> rfl

theorem s0_arg2 (V : Valuation τ sig (Elt F)) :
    after (s0 (F := F)) V (Proc.devRef .tc main_arg2) = V (Proc.devRef .tc main_arg2) := by
  simp only [s0, ValueP.ops, List.take_succ_cons, List.take_zero]
  after_results_simp <;> rfl

theorem s0_arg3 (V : Valuation τ sig (Elt F)) :
    after (s0 (F := F)) V (Proc.devRef .tc main_arg3) = V (Proc.devRef .tc main_arg3) := by
  simp only [s0, ValueP.ops, List.take_succ_cons, List.take_zero]
  after_results_simp <;> rfl

theorem s0_arg4 (V : Valuation τ sig (Elt F)) :
    after (s0 (F := F)) V (Proc.devRef .tc main_arg4) = V (Proc.devRef .tc main_arg4) := by
  simp only [s0, ValueP.ops, List.take_succ_cons, List.take_zero]
  after_results_simp <;> rfl

set_option maxHeartbeats 4000000 in
theorem read_gathered (V : Valuation τ sig (Elt F)) :
    after (s1 (F := F)) V (Proc.devRef .tc main_v30)
      = Cert.KernelIdeal.Lines.gathered (V (Proc.devRef .tc main_v10)) (V (Proc.devRef .tc main_arg2)) (V (Proc.devRef .tc main_arg3)) (V (Proc.devRef .tc main_arg4)) := by
  simp only [s1, ValueP.ops, List.take_succ_cons, List.take_zero, List.drop_succ_cons, List.drop_zero]
  after_results_simp <;> rfl

set_option maxHeartbeats 4000000 in
theorem read_labels (V : Valuation τ sig (Elt F)) :
    after (s1 (F := F)) V (Proc.devRef .tc main_v50)
      = Cert.KernelIdeal.Lines.labels (V (Proc.devRef .tc main_arg1)) (V (Proc.devRef .tc main_arg2)) (V (Proc.devRef .tc main_arg3)) (V (Proc.devRef .tc main_arg4)) := by
  simp only [s1, ValueP.ops, List.take_succ_cons, List.take_zero, List.drop_succ_cons, List.drop_zero]
  after_results_simp <;> rfl

set_option maxHeartbeats 4000000 in
theorem read_logProbs (V : Valuation τ sig (Elt F)) :
    after (s2 (F := F)) V (Proc.devRef .tc main_v51) = Cert.KernelIdeal.Lines.logProbs (V (Proc.devRef .tc main_v30)) := by
  simp only [s2, ValueP.ops, List.take_succ_cons, List.take_zero, List.drop_succ_cons, List.drop_zero]
  after_results_simp
  simp only [Cert.Lib.TypedRef.ofBuf_toBuf]
  unfold Cert.KernelIdeal.Lines.logProbs
  rfl

theorem s2_labels (V : Valuation τ sig (Elt F)) :
    after (s2 (F := F)) V (Proc.devRef .tc main_v50) = V (Proc.devRef .tc main_v50) := by
  simp only [s2, ValueP.ops, List.take_succ_cons, List.take_zero, List.drop_succ_cons, List.drop_zero]
  after_results_simp <;> rfl

theorem read_labelCol (V : Valuation τ sig (Elt F)) :
    after (s3 (F := F)) V (Proc.devRef .tc main_v52) = Cert.KernelIdeal.Lines.labelCol (V (Proc.devRef .tc main_v50)) := by
  simp only [s3, ValueP.ops, List.take_succ_cons, List.take_zero, List.drop_succ_cons, List.drop_zero]
  after_results_simp <;> rfl

theorem s3_logProbs (V : Valuation τ sig (Elt F)) :
    after (s3 (F := F)) V (Proc.devRef .tc main_v51) = V (Proc.devRef .tc main_v51) := by
  simp only [s3, ValueP.ops, List.take_succ_cons, List.take_zero, List.drop_succ_cons, List.drop_zero]
  after_results_simp <;> rfl

set_option maxRecDepth 1000000 in
set_option maxHeartbeats 4000000 in
theorem read_picked (V : Valuation τ sig (Elt F)) :
    after (s4 (F := F)) V (Proc.devRef .tc main_v53)
      = Cert.KernelIdeal.Lines.picked (V (Proc.devRef .tc main_v51)) (V (Proc.devRef .tc main_v52)) := by
  simp only [s4, ValueP.ops, List.take_succ_cons, List.take_zero, List.drop_succ_cons, List.drop_zero]
  after_results_simp
  simp only [Cert.Lib.TypedRef.ofBuf_toBuf]
  unfold Cert.KernelIdeal.Lines.picked
  rfl

set_option maxHeartbeats 4000000 in
theorem read_negMean (V : Valuation τ sig (Elt F)) :
    after (s5 (F := F)) V (Proc.devRef .tc main_v57) = Cert.KernelIdeal.Lines.negMean (V (Proc.devRef .tc main_v53)) := by
  simp only [s5, ValueP.ops, List.take_succ_cons, List.take_zero, List.drop_succ_cons, List.drop_zero]
  after_results_simp <;> rfl

/-! ## The arguments are never written -/

set_option maxHeartbeats 4000000 in
theorem arg0_kept (V : Valuation τ sig (Elt F)) :
    after (ValueP.ops (F := F)) V (Proc.devRef .tc main_arg0) = V (Proc.devRef .tc main_arg0) := by
  after_results_simp <;> rfl

set_option maxHeartbeats 4000000 in
theorem arg1_kept (V : Valuation τ sig (Elt F)) :
    after (ValueP.ops (F := F)) V (Proc.devRef .tc main_arg1) = V (Proc.devRef .tc main_arg1) := by
  after_results_simp <;> rfl

set_option maxHeartbeats 4000000 in
theorem arg2_kept (V : Valuation τ sig (Elt F)) :
    after (ValueP.ops (F := F)) V (Proc.devRef .tc main_arg2) = V (Proc.devRef .tc main_arg2) := by
  after_results_simp <;> rfl

set_option maxHeartbeats 4000000 in
theorem arg3_kept (V : Valuation τ sig (Elt F)) :
    after (ValueP.ops (F := F)) V (Proc.devRef .tc main_arg3) = V (Proc.devRef .tc main_arg3) := by
  after_results_simp <;> rfl

set_option maxHeartbeats 4000000 in
theorem arg4_kept (V : Valuation τ sig (Elt F)) :
    after (ValueP.ops (F := F)) V (Proc.devRef .tc main_arg4) = V (Proc.devRef .tc main_arg4) := by
  after_results_simp <;> rfl

/-! ## The whole program -/

/-- After the whole program, from any contents `V`, the last buffer holds `loss` of the softmax of what `V` held in the
    first argument and of what it held in the four integer arguments. -/
theorem read (V : Valuation τ sig (Elt F)) :
    after (ValueP.ops (F := F)) V (Proc.devRef .tc main_v57)
      = Cert.KernelIdeal.Lines.loss (softmaxTerm (V (Proc.devRef .tc main_arg0))) (V (Proc.devRef .tc main_arg1))
          (V (Proc.devRef .tc main_arg2)) (V (Proc.devRef .tc main_arg3)) (V (Proc.devRef .tc main_arg4)) := by
  rw [ops_eq, after_append, after_append, after_append, after_append, after_append,
    read_negMean, read_picked, s3_logProbs, read_labelCol, read_logProbs, s2_labels, read_gathered, read_labels,
    read_softmax, s0_arg1, s0_arg2, s0_arg3, s0_arg4]
  rfl

/-- On every device, for any float values, from any memory with zero counters: every weakly fair execution of the
    reference terminates with its result at `loss` of the softmax of the first argument and of the four integer
    arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57)
        = Cert.KernelIdeal.Lines.loss (softmaxTerm (m ((c.tc : Thread nD τ).loc main_arg0))) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v57).trans (read _),
      (h c main_arg0).trans (arg0_kept _), (h c main_arg1).trans (arg1_kept _), (h c main_arg2).trans (arg2_kept _),
      (h c main_arg3).trans (arg3_kept _), (h c main_arg4).trans (arg4_kept _)⟩)
    (run_seq ValueP.scopedRefs_eq ValueP.scopedSems_eq defs main (fun _ => ValueP.ops) ValueP.main_eq (fun _ => ValueP.ops_sub) m ρ)

end Cert.ReferenceIdeal.RefValue

end
-- ==== Proof.ReferenceSoftmax.lean ====
/-
  The reference's softmax is the channel softmax.

  The reference takes the maximum of x over the channel axis (a fold of the maximum from minus infinity, then once more
  the maximum with minus infinity, which changes nothing), puts it back over the 19 channels, exponentiates the
  difference, sums that over the channel axis from zero, puts the sum back over the channels and divides.  At the index
  (b, c, p, w) each stage reads only the 19 values x (b, k, p, w), and the result there is their softmax at channel c.
-/
import proofs.«140789_j19963007992276_1_alg».proof.Proof.Reference
import proofs.«140789_j19963007992276_1_alg».proof.Proof.Softmax
import proofs.«140789_j19963007992276_1_alg».proof.Proof.LibMaxReduce
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The non-pointwise operations at an index -/

/-- Dropping the channel axis of [4, 19, 1024, 1024] leaves [4, 1024, 1024]. -/
theorem dropChannel : S4x19x1024x1024.Reduces [1] S4x1024x1024 := by decide

/-- The reduced index (b, p, w) with the channel k inserted on axis 1 is (b, k, p, w). -/
theorem lift_ix3 (h : S4x19x1024x1024.Reduces [1] S4x1024x1024) (b : Fin 4) (p w : Fin 1024) (k : Fin 19) :
    h.lift (ix3 b p w) k = ix4 b k p w :=
  funext fun a => Fin.ext (by match a with | ⟨0, _⟩ => rfl | ⟨1, _⟩ => rfl | ⟨2, _⟩ => rfl | ⟨3, _⟩ => rfl)

/-- The maximum over the channel axis, started from minus infinity, at (b, p, w): the supremum of the 19 channel values. -/
theorem hostMax_apply (v : FVec Ideal S4x19x1024x1024 .f32) (h' : S4x19x1024x1024.ReducesTo [1] S4x1024x1024) (hu : 0 < S_.numel)
    (b : Fin 4) (p w : Fin 1024) :
    Host.reduce FloatOps.maximumf v (constant (F := Ideal) S_ .f32 0xFF800000#32) h' hu (ix3 b p w)
      = Finset.univ.sup fun k : Fin 19 => v (ix4 b k p w) := by
  have hinit : constant (F := Ideal) S_ .f32 0xFF800000#32 (Shape.Idx.first hu) = ⊥ := LibMaxReduce.ofBits_neg_inf_f32
  refine (LibMaxReduce.hostReduce_maximumf_single v (constant (F := Ideal) S_ .f32 0xFF800000#32) h' dropChannel hu hinit (ix3 b p w)).trans ?_
  exact congrArg (fun f : Fin 19 → EReal => (Finset.univ : Finset (Fin 19)).sup f) (funext fun k => congrArg v (lift_ix3 dropChannel b p w k))

/-- The splat of the f32 word 0xFF800000 over [4, 1024, 1024] is minus infinity everywhere. -/
theorem negInfSplat_apply (hb : S_.BroadcastsInDim S4x1024x1024 (![] : Fin 0 → Fin S4x1024x1024.rank)) (i : S4x1024x1024.Idx) :
    broadcastInDim S4x1024x1024 ![] hb (constant (F := Ideal) S_ .f32 0xFF800000#32) i = (⊥ : EReal) :=
  LibMaxReduce.ofBits_neg_inf_f32

/-- The maximum of that with minus infinity is the same supremum: minus infinity is neutral for the maximum. -/
theorem hostMaxAgain_apply (v : FVec Ideal S4x19x1024x1024 .f32) (h' : S4x19x1024x1024.ReducesTo [1] S4x1024x1024) (hu : 0 < S_.numel)
    (hb : S_.BroadcastsInDim S4x1024x1024 (![] : Fin 0 → Fin S4x1024x1024.rank)) (b : Fin 4) (p w : Fin 1024) :
    maximumf (F := Ideal) (broadcastInDim S4x1024x1024 ![] hb (constant (F := Ideal) S_ .f32 0xFF800000#32))
        (Host.reduce FloatOps.maximumf v (constant (F := Ideal) S_ .f32 0xFF800000#32) h' hu) (ix3 b p w)
      = Finset.univ.sup fun k : Fin 19 => v (ix4 b k p w) := by
  have hR := hostMax_apply v h' hu b p w
  generalize Host.reduce FloatOps.maximumf v (constant (F := Ideal) S_ .f32 0xFF800000#32) h' hu = R at hR ⊢
  rw [← hR, ValueIdx.maximumf_apply, negInfSplat_apply]
  exact max_bot_left _

/-- The sum over the channel axis, started from zero, at (b, p, w): the sum of the 19 channel values. -/
theorem hostSum_apply (v : FVec Ideal S4x19x1024x1024 .f32) (h' : S4x19x1024x1024.ReducesTo [1] S4x1024x1024) (hu : 0 < S_.numel)
    (b : Fin 4) (p w : Fin 1024) :
    Host.reduceAdd (F := Ideal) v (constant (F := Ideal) S_ .f32 0x00000000#32) h' hu (ix3 b p w)
      = ∑ k : Fin 19, v (ix4 b k p w) := by
  have e : Ideal.ofBits .f32 0x00000000#32 + ∑ k : Fin 19, v (ix4 b k p w) = ∑ k : Fin 19, v (ix4 b k p w) := by
    rw [Ideal.ofBits_zero_f32]; exact zero_add _
  unfold Host.reduceAdd
  rw [Ideal.hostReduceAdd_def, Ideal.hostReduceAdd_single h' dropChannel]
  refine Eq.trans ?_ e
  exact congrArg (fun f : Fin 19 → EReal => Ideal.ofBits .f32 0x00000000#32 + ∑ k : Fin 19, f k)
    (funext fun k => congrArg v (lift_ix3 dropChannel b p w k))

/-- A [4, 1024, 1024] array put on the axes 0, 2, 3 of [4, 1, 1024, 1024] reads (b, p, w) at (b, 0, p, w). -/
theorem unitChannel_apply {α : Type} (v : S4x1024x1024.Idx → α)
    (h : S4x1024x1024.BroadcastsInDim S4x1x1024x1024 (![0, 2, 3] : Fin 3 → Fin S4x1x1024x1024.rank)) (b : Fin 4) (p w : Fin 1024) :
    broadcastInDim S4x1x1024x1024 ![0, 2, 3] h v (ix4 b (0 : Fin 1) p w) = v (ix3 b p w) := by
  refine broadcastInDim_apply _ h v _ _ fun a => ?_
  match a with | ⟨0, _⟩ => rfl | ⟨1, _⟩ => rfl | ⟨2, _⟩ => rfl

/-- A [4, 1, 1024, 1024] array broadcast over the 19 channels reads (b, 0, p, w) at (b, c, p, w). -/
theorem overChannels_apply {α : Type} (v : S4x1x1024x1024.Idx → α)
    (h : S4x1x1024x1024.BroadcastsInDim S4x19x1024x1024 (![0, 1, 2, 3] : Fin 4 → Fin S4x19x1024x1024.rank))
    (b : Fin 4) (c : Fin 19) (p w : Fin 1024) :
    broadcastInDim S4x19x1024x1024 ![0, 1, 2, 3] h v (ix4 b c p w) = v (ix4 b (0 : Fin 1) p w) := by
  refine broadcastInDim_apply _ h v _ _ fun a => ?_
  match a with | ⟨0, _⟩ => rfl | ⟨1, _⟩ => rfl | ⟨2, _⟩ => rfl | ⟨3, _⟩ => rfl

/-! ## The stages of the reference's softmax -/

/-- The channel maximum, put back over the 19 channels. -/
def rmax (x : FVec Ideal S4x19x1024x1024 .f32) : FVec Ideal S4x19x1024x1024 .f32 :=
  broadcastInDim S4x19x1024x1024 ![0, 1, 2, 3] bcast_S4x1x1024x1024_S4x19x1024x1024_0_1_2_3 (broadcastInDim S4x1x1024x1024 ![0, 2, 3] bcast_S4x1024x1024_S4x1x1024x1024_0_2_3 (maximumf (F := Ideal) (broadcastInDim S4x1024x1024 ![] bcast_S_S4x1024x1024 (constant (F := Ideal) S_ .f32 0xFF800000#32)) (Host.reduce FloatOps.maximumf x (constant (F := Ideal) S_ .f32 0xFF800000#32) reducesTo_S4x19x1024x1024_S4x1024x1024_d1 h_S_)))

/-- The exponential of the distance to the channel maximum. -/
def rexp (x : FVec Ideal S4x19x1024x1024 .f32) : FVec Ideal S4x19x1024x1024 .f32 := Host.exp (subf x (rmax x))

/-- The sum of those exponentials over the channels, put back over the 19 channels. -/
def rsum (x : FVec Ideal S4x19x1024x1024 .f32) : FVec Ideal S4x19x1024x1024 .f32 :=
  broadcastInDim S4x19x1024x1024 ![0, 1, 2, 3] bcast_S4x1x1024x1024_S4x19x1024x1024_0_1_2_3 (broadcastInDim S4x1x1024x1024 ![0, 2, 3] bcast_S4x1024x1024_S4x1x1024x1024_0_2_3 (Host.reduceAdd (F := Ideal) (rexp x) (constant (F := Ideal) S_ .f32 0x00000000#32) reducesTo_S4x19x1024x1024_S4x1024x1024_d1 h_S_))

/-- The reference's printed softmax is the quotient of the last two. -/
theorem softmaxTerm_stages (x : (⟨S4x19x1024x1024, .f32⟩ : BufTy).Contents (Elt Ideal)) :
    softmaxTerm (F := Ideal) x = Host.divf (F := Ideal) (rexp x) (rsum x) := rfl

theorem rmax_apply (x : FVec Ideal S4x19x1024x1024 .f32) (b : Fin 4) (c : Fin 19) (p w : Fin 1024) :
    rmax x (ix4 b c p w) = Finset.univ.sup fun k : Fin 19 => x (ix4 b k p w) :=
  (overChannels_apply _ _ b c p w).trans ((unitChannel_apply _ _ b p w).trans (hostMaxAgain_apply x _ _ _ b p w))

theorem rexp_apply (x : FVec Ideal S4x19x1024x1024 .f32) (b : Fin 4) (c : Fin 19) (p w : Fin 1024) :
    rexp x (ix4 b c p w) = Ideal.exp (x (ix4 b c p w) - Finset.univ.sup fun k : Fin 19 => x (ix4 b k p w)) :=
  congrArg (fun m => Ideal.exp (x (ix4 b c p w) - m)) (rmax_apply x b c p w)

theorem rsum_apply (x : FVec Ideal S4x19x1024x1024 .f32) (b : Fin 4) (c : Fin 19) (p w : Fin 1024) :
    rsum x (ix4 b c p w) = ∑ j : Fin 19, Ideal.exp (x (ix4 b j p w) - Finset.univ.sup fun k : Fin 19 => x (ix4 b k p w)) :=
  (overChannels_apply _ _ b c p w).trans ((unitChannel_apply _ _ b p w).trans ((hostSum_apply (rexp x) _ _ b p w).trans
    (Finset.sum_congr rfl fun j _ => rexp_apply x b j p w)))

/-! ## The reference's softmax -/

/-- The reference's printed softmax of x is the channel softmax of x. -/
theorem softmaxTerm_eq (x : (⟨S4x19x1024x1024, .f32⟩ : BufTy).Contents (Elt Ideal)) :
    softmaxTerm (F := Ideal) x = Cert.Softmax.G x := by
  funext i
  obtain ⟨b, c, p, w, rfl⟩ : ∃ (b : Fin 4) (c : Fin 19) (p w : Fin 1024), i = ix4 b c p w := ⟨i 0, i 1, i 2, i 3, eq_ix4 i⟩
  rw [softmaxTerm_stages, Cert.Softmax.G_ix4]
  show Ideal.div (rexp x (ix4 b c p w)) (rsum x (ix4 b c p w)) = _
  rw [rexp_apply, rsum_apply]
  rfl

end Cert.ReferenceIdeal.RefValue

end
-- ==== Proof.lean ====
/-
  The certificate of the sparse cross-entropy loss over a dense channel softmax.

  Both programs take predict : f32[4, 19, 1024, 1024], target : i32[4, 1024, 1024] and three coordinate arrays
  i32[500000], and return the mean over the 500000 locations of minus the log-softmax, at the location's label, of the
  19 softmax values at the location. The kernel computes the dense softmax over the channel axis in a tiled region
  (one block of 64 rows of one image per grid point) and the rest by host operations; the reference computes the
  softmax by host operations over the whole array and then runs the same later lines.

  At the ideal instance the region's array is, index by index, exp (x − M) / Σ exp (x − M) with M the maximum over the
  19 channels — the blocks written back tile the array — and the reference's softmax is the same expression (its
  maximum is taken once more against minus infinity, which changes nothing). The later lines are one function of the
  softmax array and of the integer arguments on both sides, so the two results are equal; no law that would need the
  inputs finite is used. Each program's frame is its run with the result dropped. The ideal pass rewrote nothing, so
  the idealization claim has no conjunct.
-/
import proofs.«140789_j19963007992276_1_alg».proof.Defs
import proofs.«140789_j19963007992276_1_alg».proof.Proof.Gen.Kernel
import proofs.«140789_j19963007992276_1_alg».proof.Proof.Gen.KernelIdeal
import proofs.«140789_j19963007992276_1_alg».proof.Proof.Gen.ReferenceIdeal
import proofs.«140789_j19963007992276_1_alg».proof.Proof.Gen.Pre_finite_inputs
import proofs.«140789_j19963007992276_1_alg».proof.Proof.Kernel.Region
import proofs.«140789_j19963007992276_1_alg».proof.Proof.KernelIdeal.Result
import proofs.«140789_j19963007992276_1_alg».proof.Proof.ReferenceRun
import proofs.«140789_j19963007992276_1_alg».proof.Proof.ReferenceSoftmax
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as launched. -/
theorem frame_kernel : Cert.frame_Kernel := fun m ρ _ => Cert.Kernel.Region.frame (F := Bits) m ρ

/-- So does the idealized kernel. -/
theorem frame_kernelIdeal : Cert.frame_KernelIdeal := fun m ρ _ => Cert.KernelIdeal.Region.frame (F := Ideal) m ρ

/-- And the reference: its run with the result dropped. -/
theorem frame_reference : Cert.frame_ReferenceIdeal := fun m ρ _ =>
  (θ_run Cert.ReferenceIdeal.defs _ _).mono (fun _ h c => (h c).2) (Cert.ReferenceIdeal.RefValue.run (F := Ideal) m ρ)

/-- The ideal pass rewrote no operation. -/
theorem preserves : Cert.preserves_Kernel_KernelIdeal := trivial

/-- From memories that agree on the arguments both programs end at the later lines' function of the channel softmax
    of the first argument and of the integer arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.RefValue.run (F := Ideal) m' ρ')
  rw [Cert.ReferenceIdeal.RefValue.softmaxTerm_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
